-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S16x64 .f32) (main_arg8 : FVec F S16x64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16x64 .f32 := Host.absf main_arg8
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S16x64 .f32) (main_arg8 : FVec F S16x64 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S4x512x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S16x64 .f32) (main_arg8 : FVec F S16x64 .f32) (main_arg9 : IVec S131072 32) (main_arg10 : IVec S131072 32) (main_arg11 : IVec S131072 32) (main_arg12 : IVec S131072 32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S2048x768 : Shape := ⟨2, ![2048, 768]⟩
abbrev S768x2304 : Shape := ⟨2, ![768, 2304]⟩
abbrev S2304 : Shape := ⟨1, ![2304]⟩
abbrev S1x2304 : Shape := ⟨2, ![1, 2304]⟩
abbrev S2048x2304 : Shape := ⟨2, ![2048, 2304]⟩
abbrev S256x768 : Shape := ⟨2, ![256, 768]⟩
abbrev S256x2304 : Shape := ⟨2, ![256, 2304]⟩
abbrev S2048x12x64 : Shape := ⟨3, ![2048, 12, 64]⟩
abbrev S_ : Shape := ⟨0, ![]⟩
abbrev S131072x1 : Shape := ⟨2, ![131072, 1]⟩
abbrev S131072x12x64 : Shape := ⟨3, ![131072, 12, 64]⟩
abbrev S131072x64 : Shape := ⟨2, ![131072, 64]⟩
abbrev S131072x1x64 : Shape := ⟨3, ![131072, 1, 64]⟩
abbrev S131072x12 : Shape := ⟨2, ![131072, 12]⟩
abbrev S512x12x64 : Shape := ⟨3, ![512, 12, 64]⟩
abbrev S512x1x64 : Shape := ⟨3, ![512, 1, 64]⟩
abbrev S512x12 : Shape := ⟨2, ![512, 12]⟩
abbrev S2048x12 : Shape := ⟨2, ![2048, 12]⟩
abbrev S512x12x1 : Shape := ⟨3, ![512, 12, 1]⟩

abbrev nBuf : Space → Nat
  | .hbm => 89
  | .vmem => 24
  | .smem => 0
  | _ => 0

abbrev bufTy : (tb : Table) → Fin (tcTables nBuf tb) → BufTy
  | .hbm, ⟨0, _⟩ => ⟨S4x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x64, .f32⟩
  | .hbm, ⟨8, _⟩ => ⟨S16x64, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S2048x768, .f32⟩
  | .hbm, ⟨14, _⟩ => ⟨S768x768, .f32⟩
  | .hbm, ⟨15, _⟩ => ⟨S768x768, .f32⟩
  | .hbm, ⟨16, _⟩ => ⟨S768x768, .f32⟩
  | .hbm, ⟨17, _⟩ => ⟨S768x2304, .f32⟩
  | .hbm, ⟨18, _⟩ => ⟨S2304, .f32⟩
  | .hbm, ⟨19, _⟩ => ⟨S1x2304, .f32⟩
  | .hbm, ⟨20, _⟩ => ⟨S2048x2304, .f32⟩
  | .hbm, ⟨21, _⟩ => ⟨S2048x768, .f32⟩
  | .hbm, ⟨22, _⟩ => ⟨S2048x12x64, .f32⟩
  | .hbm, ⟨23, _⟩ => ⟨S2048x768, .f32⟩
  | .hbm, ⟨24, _⟩ => ⟨S2048x12x64, .f32⟩
  | .hbm, ⟨25, _⟩ => ⟨S2048x768, .f32⟩
  | .hbm, ⟨26, _⟩ => ⟨S2048x12x64, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072x12x64, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x12x64, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072x64, .f32⟩
  | .hbm, ⟨54, _⟩ => ⟨S131072x1x64, .f32⟩
  | .hbm, ⟨55, _⟩ => ⟨S131072x12, .f32⟩
  | .hbm, ⟨56, _⟩ => ⟨S_, .f32⟩
  | .hbm, ⟨57, _⟩ => ⟨S2048x12, .f32⟩
  | .hbm, ⟨58, _⟩ => ⟨S131072x1, .i32⟩
  | .hbm, ⟨59, _⟩ => ⟨S2048x12, .f32⟩
  | .hbm, ⟨60, _⟩ => ⟨S_, .i32⟩
  | .hbm, ⟨61, _⟩ => ⟨S131072, .i32⟩
  | .hbm, ⟨62, _⟩ => ⟨S131072, .i1⟩
  | .hbm, ⟨63, _⟩ => ⟨S_, .i32⟩
  | .hbm, ⟨64, _⟩ => ⟨S131072, .i32⟩
  | .hbm, ⟨65, _⟩ => ⟨S131072, .i32⟩
  | .hbm, ⟨66, _⟩ => ⟨S131072, .i32⟩
  | .hbm, ⟨67, _⟩ => ⟨S131072x1, .i32⟩
  | .hbm, ⟨68, _⟩ => ⟨S131072x12, .f32⟩
  | .hbm, ⟨69, _⟩ => ⟨S_, .i32⟩
  | .hbm, ⟨70, _⟩ => ⟨S131072, .i32⟩
  | .hbm, ⟨71, _⟩ => ⟨S131072, .i1⟩
  | .hbm, ⟨72, _⟩ => ⟨S_, .i32⟩
  | .hbm, ⟨73, _⟩ => ⟨S131072, .i32⟩
  | .hbm, ⟨74, _⟩ => ⟨S131072, .i32⟩
  | .hbm, ⟨75, _⟩ => ⟨S131072, .i32⟩
  | .hbm, ⟨76, _⟩ => ⟨S131072x1, .i32⟩
  | .hbm, ⟨77, _⟩ => ⟨S131072x12x64, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x64, .f32⟩
  | .hbm, ⟨87, _⟩ => ⟨S131072x1x64, .f32⟩
  | .hbm, ⟨88, _⟩ => ⟨S131072x12x64, .f32⟩
  | .local _ .vmem, ⟨0, _⟩ => ⟨S256x768, .f32⟩
  | .local _ .vmem, ⟨1, _⟩ => ⟨S256x768, .f32⟩
  | .local _ .vmem, ⟨2, _⟩ => ⟨S768x2304, .f32⟩
  | .local _ .vmem, ⟨3, _⟩ => ⟨S1x2304, .f32⟩
  | .local _ .vmem, ⟨4, _⟩ => ⟨S256x2304, .f32⟩
  | .local _ .vmem, ⟨5, _⟩ => ⟨S256x2304, .f32⟩
  | .local _ .vmem, ⟨6, _⟩ => ⟨S512x12x64, .f32⟩
  | .local _ .vmem, ⟨7, _⟩ => ⟨S512x12x64, .f32⟩
  | .local _ .vmem, ⟨8, _⟩ => ⟨S512x12x64, .f32⟩
  | .local _ .vmem, ⟨9, _⟩ => ⟨S512x12x64, .f32⟩
  | .local _ .vmem, ⟨10, _⟩ => ⟨S512x1x64, .f32⟩
  | .local _ .vmem, ⟨11, _⟩ => ⟨S512x1x64, .f32⟩
  | .local _ .vmem, ⟨12, _⟩ => ⟨S512x12, .f32⟩
  | .local _ .vmem, ⟨13, _⟩ => ⟨S512x12, .f32⟩
  | .local _ .vmem, ⟨14, _⟩ => ⟨S512x12x64, .f32⟩
  | .local _ .vmem, ⟨15, _⟩ => ⟨S512x12x64, .f32⟩
  | .local _ .vmem, ⟨16, _⟩ => ⟨S512x1x64, .f32⟩
  | .local _ .vmem, ⟨17, _⟩ => ⟨S512x1x64, .f32⟩
  | .local _ .vmem, ⟨18, _⟩ => ⟨S512x12, .f32⟩
  | .local _ .vmem, ⟨19, _⟩ => ⟨S512x12, .f32⟩
  | .local _ .vmem, ⟨20, _⟩ => ⟨S512x12, .f32⟩
  | .local _ .vmem, ⟨21, _⟩ => ⟨S512x12, .f32⟩
  | .local _ .vmem, ⟨22, _⟩ => ⟨S512x12x64, .f32⟩
  | .local _ .vmem, ⟨23, _⟩ => ⟨S512x12x64, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x12x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x12x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![256], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x12x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x12 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x12 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x12x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S4x512x768_S2048x768 : S4x512x768.ShapeCasts S2048x768
  transposes_S768x768_S768x768_1_0 : S768x768.Transposes [1, 0] S768x768
  concatenates_S768x768_S768x768_S768x768_S768x2304_d1 : Shape.Concatenates [S768x768, S768x768, S768x768] S768x2304 1
  concatenates_S768_S768_S768_S2304_d0 : Shape.Concatenates [S768, S768, S768] S2304 0
  shapeCasts_S2304_S1x2304 : S2304.ShapeCasts S1x2304
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  inb_S256x2304_S256x2304_0_0 : ∀ a, (![0, 0] : Fin 2 → Nat) a + S256x2304.size a ≤ S256x2304.size a
  h_S256x2304 : 0 < S256x2304.numel
  slices_S2048x2304_S2048x768_0_0 : S2048x2304.Slices ![0, 0] S2048x768
  shapeCasts_S2048x768_S2048x12x64 : S2048x768.ShapeCasts S2048x12x64
  slices_S2048x2304_S2048x768_0_768 : S2048x2304.Slices ![0, 768] S2048x768
  slices_S2048x2304_S2048x768_0_1536 : S2048x2304.Slices ![0, 1536] S2048x768
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x64_S131072x1x64 : S131072x64.ShapeCasts S131072x1x64
  inb_S512x12x64_S512x12x64_0_0_0 : ∀ a, (![0, 0, 0] : Fin 3 → Nat) a + S512x12x64.size a ≤ S512x12x64.size a
  h_S512x12x64 : 0 < S512x12x64.numel
  shapeCasts_S512x12x64_S512x12x64 : S512x12x64.ShapeCasts S512x12x64
  inb_S512x1x64_S512x1x64_0_0_0 : ∀ a, (![0, 0, 0] : Fin 3 → Nat) a + S512x1x64.size a ≤ S512x1x64.size a
  h_S512x1x64 : 0 < S512x1x64.numel
  shapeCasts_S512x1x64_S512x1x64 : S512x1x64.ShapeCasts S512x1x64
  broadcasts_S512x1x64_S512x12x64 : S512x1x64.Broadcasts S512x12x64
  reduces_S512x12x64_S512x12 : S512x12x64.Reduces [2] S512x12
  inb_S512x12_S512x12_0_0 : ∀ a, (![0, 0] : Fin 2 → Nat) a + S512x12.size a ≤ S512x12.size a
  h_S512x12 : 0 < S512x12.numel
  bcast_S_S2048x12 : S_.BroadcastsInDim S2048x12 (![] : Fin 0 → Fin S2048x12.rank)
  shapeCasts_S512x12_S512x12 : S512x12.ShapeCasts S512x12
  shapeCasts_S512x12_S512x12x1 : S512x12.ShapeCasts S512x12x1
  broadcasts_S512x12x1_S512x12x64 : S512x12x1.Broadcasts S512x12x64
  dot_S256x768_S768x2304_S256x2304_1_0_0_1_n_n_wf : DotDims.WF S256x768 S768x2304 S256x2304 [1] [0] [0] [1] [] []
  gather_S2048x12x64_S131072x1_S131072x12x64_12_0_n_n_0_1_11264_wf : GatherDims.WF S2048x12x64 S131072x1 S131072x12x64 [1, 2] [0] [] [0] [] 1 ![1, 12, 64]
  gather_S16x64_S131072x1_S131072x64_1_0_n_n_0_1_164_wf : GatherDims.WF S16x64 S131072x1 S131072x64 [1] [0] [] [0] [] 1 ![1, 64]
  scatter_S2048x12_S131072x1_S131072x12_1_0_0_1_wf : ScatterDims.WF S2048x12 S131072x1 S131072x12 [1] [0] [0] 1
  gather_S2048x12_S131072x1_S131072x12_1_0_n_n_0_1_112_wf : GatherDims.WF S2048x12 S131072x1 S131072x12 [1] [0] [] [0] [] 1 ![1, 12]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S2048x2304.size a
  hwx0_3 : ∀ i : grid0.Coords, EltTy.bits .f32 = 32 ∨ (Rect.block (s := S2048x2304) S256x2304.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x12x64.size a ≤ S131072x12x64.size a
  hwx1_0 : ∀ i : grid1.Coords, EltTy.bits .f32 = 32 ∨ (Rect.block (s := S131072x12x64) S512x12x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x12x64.size a ≤ S131072x12x64.size a
  hwx1_1 : ∀ i : grid1.Coords, EltTy.bits .f32 = 32 ∨ (Rect.block (s := S131072x12x64) S512x12x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1x64.size a ≤ S131072x1x64.size a
  hwx1_2 : ∀ i : grid1.Coords, EltTy.bits .f32 = 32 ∨ (Rect.block (s := S131072x1x64) S512x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x12.size a ≤ S131072x12.size a
  hwx1_3 : ∀ i : grid1.Coords, EltTy.bits .f32 = 32 ∨ (Rect.block (s := S131072x12) S512x12.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x12x64.size a ≤ S131072x12x64.size a
  hwx2_0 : ∀ i : grid2.Coords, EltTy.bits .f32 = 32 ∨ (Rect.block (s := S131072x12x64) S512x12x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1x64.size a ≤ S131072x1x64.size a
  hwx2_1 : ∀ i : grid2.Coords, EltTy.bits .f32 = 32 ∨ (Rect.block (s := S131072x1x64) S512x1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x12.size a ≤ S131072x12.size a
  hwx2_2 : ∀ i : grid2.Coords, EltTy.bits .f32 = 32 ∨ (Rect.block (s := S131072x12) S512x12.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x12.size a ≤ S131072x12.size a
  hwx2_3 : ∀ i : grid2.Coords, EltTy.bits .f32 = 32 ∨ (Rect.block (s := S131072x12) S512x12.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x12x64.size a ≤ S131072x12x64.size a
  hwx2_4 : ∀ i : grid2.Coords, EltTy.bits .f32 = 32 ∨ (Rect.block (s := S131072x12x64) S512x12x64.size (cc2_transform_4 i) (hinb2_4 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def gather_S2048x12x64_S131072x1_S131072x12x64_12_0_n_n_0_1_11264 : GatherDims S2048x12x64 S131072x1 S131072x12x64 where
  offsetDims := [1, 2]
  collapsedSliceDims := [0]
  operandBatchingDims := []
  startIndicesBatchingDims := []
  startIndexMap := [0]
  indexVectorDim := 1
  sliceSizes := ![1, 12, 64]
  wf := gather_S2048x12x64_S131072x1_S131072x12x64_12_0_n_n_0_1_11264_wf
def gather_S16x64_S131072x1_S131072x64_1_0_n_n_0_1_164 : GatherDims S16x64 S131072x1 S131072x64 where
  offsetDims := [1]
  collapsedSliceDims := [0]
  operandBatchingDims := []
  startIndicesBatchingDims := []
  startIndexMap := [0]
  indexVectorDim := 1
  sliceSizes := ![1, 64]
  wf := gather_S16x64_S131072x1_S131072x64_1_0_n_n_0_1_164_wf
def scatter_S2048x12_S131072x1_S131072x12_1_0_0_1 : ScatterDims S2048x12 S131072x1 S131072x12 where
  updateWindowDims := [1]
  insertedWindowDims := [0]
  scatterDimsToOperandDims := [0]
  indexVectorDim := 1
  wf := scatter_S2048x12_S131072x1_S131072x12_1_0_0_1_wf
def gather_S2048x12_S131072x1_S131072x12_1_0_n_n_0_1_112 : GatherDims S2048x12 S131072x1 S131072x12 where
  offsetDims := [1]
  collapsedSliceDims := [0]
  operandBatchingDims := []
  startIndicesBatchingDims := []
  startIndexMap := [0]
  indexVectorDim := 1
  sliceSizes := ![1, 12]
  wf := gather_S2048x12_S131072x1_S131072x12_1_0_n_n_0_1_112_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S512x12x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S512x12x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S512x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S512x12.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S512x12x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S512x1x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S512x12.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S512x12.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S512x12x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S2048x768 : Shape := ⟨2, ![2048, 768]⟩
abbrev S1x768 : Shape := ⟨2, ![1, 768]⟩
abbrev S2048x12x64 : Shape := ⟨3, ![2048, 12, 64]⟩
abbrev S_ : Shape := ⟨0, ![]⟩
abbrev S131072x1 : Shape := ⟨2, ![131072, 1]⟩
abbrev S131072x12x64 : Shape := ⟨3, ![131072, 12, 64]⟩
abbrev S131072x64 : Shape := ⟨2, ![131072, 64]⟩
abbrev S131072x1x64 : Shape := ⟨3, ![131072, 1, 64]⟩
abbrev S131072x12 : Shape := ⟨2, ![131072, 12]⟩
abbrev S2048x12 : Shape := ⟨2, ![2048, 12]⟩
abbrev S131072x12x1 : Shape := ⟨3, ![131072, 12, 1]⟩

abbrev nBuf : Space → Nat
  | .hbm => 108
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x64, .f32⟩
  | .hbm, ⟨8, _⟩ => ⟨S16x64, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S2048x768, .f32⟩
  | .hbm, ⟨14, _⟩ => ⟨S768x768, .f32⟩
  | .hbm, ⟨15, _⟩ => ⟨S2048x768, .f32⟩
  | .hbm, ⟨16, _⟩ => ⟨S1x768, .f32⟩
  | .hbm, ⟨17, _⟩ => ⟨S2048x768, .f32⟩
  | .hbm, ⟨18, _⟩ => ⟨S2048x768, .f32⟩
  | .hbm, ⟨19, _⟩ => ⟨S2048x12x64, .f32⟩
  | .hbm, ⟨20, _⟩ => ⟨S768x768, .f32⟩
  | .hbm, ⟨21, _⟩ => ⟨S2048x768, .f32⟩
  | .hbm, ⟨22, _⟩ => ⟨S1x768, .f32⟩
  | .hbm, ⟨23, _⟩ => ⟨S2048x768, .f32⟩
  | .hbm, ⟨24, _⟩ => ⟨S2048x768, .f32⟩
  | .hbm, ⟨25, _⟩ => ⟨S2048x12x64, .f32⟩
  | .hbm, ⟨26, _⟩ => ⟨S768x768, .f32⟩
  | .hbm, ⟨27, _⟩ => ⟨S2048x768, .f32⟩
  | .hbm, ⟨28, _⟩ => ⟨S1x768, .f32⟩
  | .hbm, ⟨29, _⟩ => ⟨S2048x768, .f32⟩
  | .hbm, ⟨30, _⟩ => ⟨S2048x768, .f32⟩
  | .hbm, ⟨31, _⟩ => ⟨S2048x12x64, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x12x64, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S131072x64, .f32⟩
  | .hbm, ⟨50, _⟩ => ⟨S131072x1x64, .f32⟩
  | .hbm, ⟨51, _⟩ => ⟨S131072x12x64, .f32⟩
  | .hbm, ⟨52, _⟩ => ⟨S131072x12x64, .f32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S131072x1, .i32⟩
  | .hbm, ⟨61, _⟩ => ⟨S131072x12x64, .f32⟩
  | .hbm, ⟨62, _⟩ => ⟨S131072x12x64, .f32⟩
  | .hbm, ⟨63, _⟩ => ⟨S_, .f32⟩
  | .hbm, ⟨64, _⟩ => ⟨S131072x12, .f32⟩
  | .hbm, ⟨65, _⟩ => ⟨S_, .f32⟩
  | .hbm, ⟨66, _⟩ => ⟨S_, .f32⟩
  | .hbm, ⟨67, _⟩ => ⟨S131072x12, .f32⟩
  | .hbm, ⟨68, _⟩ => ⟨S131072x12, .f32⟩
  | .hbm, ⟨69, _⟩ => ⟨S131072x12, .f32⟩
  | .hbm, ⟨70, _⟩ => ⟨S_, .f32⟩
  | .hbm, ⟨71, _⟩ => ⟨S2048x12, .f32⟩
  | .hbm, ⟨72, _⟩ => ⟨S131072x1, .i32⟩
  | .hbm, ⟨73, _⟩ => ⟨S2048x12, .f32⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S131072x1, .i32⟩
  | .hbm, ⟨82, _⟩ => ⟨S131072x12, .f32⟩
  | .hbm, ⟨83, _⟩ => ⟨S131072x12, .f32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S131072x12x64, .f32⟩
  | .hbm, ⟨93, _⟩ => ⟨S_, .i32⟩
  | .hbm, ⟨94, _⟩ => ⟨S131072, .i32⟩
  | .hbm, ⟨95, _⟩ => ⟨S131072, .i1⟩
  | .hbm, ⟨96, _⟩ => ⟨S_, .i32⟩
  | .hbm, ⟨97, _⟩ => ⟨S131072, .i32⟩
  | .hbm, ⟨98, _⟩ => ⟨S131072, .i32⟩
  | .hbm, ⟨99, _⟩ => ⟨S131072, .i32⟩
  | .hbm, ⟨100, _⟩ => ⟨S131072x1, .i32⟩
  | .hbm, ⟨101, _⟩ => ⟨S131072x64, .f32⟩
  | .hbm, ⟨102, _⟩ => ⟨S131072x1x64, .f32⟩
  | .hbm, ⟨103, _⟩ => ⟨S131072x12x64, .f32⟩
  | .hbm, ⟨104, _⟩ => ⟨S131072x12x64, .f32⟩
  | .hbm, ⟨105, _⟩ => ⟨S131072x12x1, .f32⟩
  | .hbm, ⟨106, _⟩ => ⟨S131072x12x64, .f32⟩
  | .hbm, ⟨107, _⟩ => ⟨S131072x12x64, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  shapeCasts_S4x512x768_S2048x768 : S4x512x768.ShapeCasts S2048x768
  transposes_S768x768_S768x768_1_0 : S768x768.Transposes [1, 0] S768x768
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  shapeCasts_S2048x768_S2048x12x64 : S2048x768.ShapeCasts S2048x12x64
  bcast_S_S131072 : S_.BroadcastsInDim S131072 (![] : Fin 0 → Fin S131072.rank)
  bcast_S131072_S131072x1_0 : S131072.BroadcastsInDim S131072x1 (![0] : Fin 1 → Fin S131072x1.rank)
  bcast_S131072x64_S131072x1x64_0_2 : S131072x64.BroadcastsInDim S131072x1x64 (![0, 2] : Fin 2 → Fin S131072x1x64.rank)
  bcast_S131072x1x64_S131072x12x64_0_1_2 : S131072x1x64.BroadcastsInDim S131072x12x64 (![0, 1, 2] : Fin 3 → Fin S131072x12x64.rank)
  reducesTo_S131072x12x64_S131072x12_d2 : S131072x12x64.ReducesTo [2] S131072x12
  h_S_ : 0 < S_.numel
  bcast_S_S131072x12 : S_.BroadcastsInDim S131072x12 (![] : Fin 0 → Fin S131072x12.rank)
  bcast_S_S2048x12 : S_.BroadcastsInDim S2048x12 (![] : Fin 0 → Fin S2048x12.rank)
  bcast_S131072x12_S131072x12x1_0_1 : S131072x12.BroadcastsInDim S131072x12x1 (![0, 1] : Fin 2 → Fin S131072x12x1.rank)
  bcast_S131072x12x1_S131072x12x64_0_1_2 : S131072x12x1.BroadcastsInDim S131072x12x64 (![0, 1, 2] : Fin 3 → Fin S131072x12x64.rank)
  dot_S2048x768_S768x768_S2048x768_1_0_0_1_n_n_wf : DotDims.WF S2048x768 S768x768 S2048x768 [1] [0] [0] [1] [] []
  gather_S2048x12x64_S131072x1_S131072x12x64_12_0_n_n_0_1_11264_wf : GatherDims.WF S2048x12x64 S131072x1 S131072x12x64 [1, 2] [0] [] [0] [] 1 ![1, 12, 64]
  gather_S16x64_S131072x1_S131072x64_1_0_n_n_0_1_164_wf : GatherDims.WF S16x64 S131072x1 S131072x64 [1] [0] [] [0] [] 1 ![1, 64]
  scatter_S2048x12_S131072x1_S131072x12_1_0_0_1_wf : ScatterDims.WF S2048x12 S131072x1 S131072x12 [1] [0] [0] 1
  gather_S2048x12_S131072x1_S131072x12_1_0_n_n_0_1_112_wf : GatherDims.WF S2048x12 S131072x1 S131072x12 [1] [0] [] [0] [] 1 ![1, 12]

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def gather_S2048x12x64_S131072x1_S131072x12x64_12_0_n_n_0_1_11264 : GatherDims S2048x12x64 S131072x1 S131072x12x64 where
  offsetDims := [1, 2]
  collapsedSliceDims := [0]
  operandBatchingDims := []
  startIndicesBatchingDims := []
  startIndexMap := [0]
  indexVectorDim := 1
  sliceSizes := ![1, 12, 64]
  wf := gather_S2048x12x64_S131072x1_S131072x12x64_12_0_n_n_0_1_11264_wf
def gather_S16x64_S131072x1_S131072x64_1_0_n_n_0_1_164 : GatherDims S16x64 S131072x1 S131072x64 where
  offsetDims := [1]
  collapsedSliceDims := [0]
  operandBatchingDims := []
  startIndicesBatchingDims := []
  startIndexMap := [0]
  indexVectorDim := 1
  sliceSizes := ![1, 64]
  wf := gather_S16x64_S131072x1_S131072x64_1_0_n_n_0_1_164_wf
def scatter_S2048x12_S131072x1_S131072x12_1_0_0_1 : ScatterDims S2048x12 S131072x1 S131072x12 where
  updateWindowDims := [1]
  insertedWindowDims := [0]
  scatterDimsToOperandDims := [0]
  indexVectorDim := 1
  wf := scatter_S2048x12_S131072x1_S131072x12_1_0_0_1_wf
def gather_S2048x12_S131072x1_S131072x12_1_0_n_n_0_1_112 : GatherDims S2048x12 S131072x1 S131072x12 where
  offsetDims := [1]
  collapsedSliceDims := [0]
  operandBatchingDims := []
  startIndicesBatchingDims := []
  startIndexMap := [0]
  indexVectorDim := 1
  sliceSizes := ![1, 12]
  wf := gather_S2048x12_S131072x1_S131072x12_1_0_n_n_0_1_112_wf

class Facts : Prop extends Facts₀ where

variable [Facts]
-- ==== Proof.K.Region0.lean ====
/-
  Region 0 of the kernel's program, at any float instance and at any contents `V` of the buffers when the region is
  entered: the fused projection: a block of 256 rows of the hidden states times the whole concatenated weight matrix plus the bias row.
  Per grid point the body loads every input window's block whole, computes one payload and stores it over the whole
  output block; so the output staging buffer after the body is that payload of the input blocks (`out0_3`), the
  input buffers are left as found, and the pipeline's proof data (`dat0`) say exactly this. The body obligation of the
  pipeline follows from the body's triple: the loads and the one store, taken in order.
-/
import proofs.«101311_j29489245454921_2_alg».proof.Proof.Gen.Kernel.Launch
import proofs.«101311_j29489245454921_2_alg».proof.Proof.Gen.Kernel.Skeleton
import proofs.«101311_j29489245454921_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or the block
    index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether it was fetched there or the block
    index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether it was fetched there or the block
    index stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_S256x768 : Rect S256x768 := Rect.unit (s := S256x768) ![0, 0] S256x768.size inb_S256x768_S256x768_0_0
abbrev r0_S768x2304 : Rect S768x2304 := Rect.unit (s := S768x2304) ![0, 0] S768x2304.size inb_S768x2304_S768x2304_0_0
abbrev r0_S1x2304 : Rect S1x2304 := Rect.unit (s := S1x2304) ![0, 0] S1x2304.size inb_S1x2304_S1x2304_0_0
abbrev r0_S256x2304 : Rect S256x2304 := Rect.unit (s := S256x2304) ![0, 0] S256x2304.size inb_S256x2304_S256x2304_0_0

/-- The output window's staging buffer after the body, from the input windows' blocks: the one store, of the payload of
    the whole input blocks, over the whole block. -/
def out0_3 (x0 : Vec F S256x768 .f32) (x1 : Vec F S768x2304 .f32) (x2 : Vec F S1x2304 .f32) : Vec F S256x2304 .f32 :=
  View.canon [⟨r0_S256x2304, k0_pay1 (View.ld x0 r0_S256x768) (View.ld x1 r0_S768x2304) (View.ld x2 r0_S1x2304)⟩]

/-- The one store covers the block. -/
theorem cover0_3 (p0 : Vec F S256x2304 .f32) (y : S256x2304.Idx) :
    ∃ pc ∈ ([⟨r0_S256x2304, p0⟩] : List (View.Piece (Elt F) S256x2304 .f32)), y ∈ pc.1.set :=
  View.cover_of_tiled [⟨r0_S256x2304, p0⟩] S256x2304.size (by rfl) y

set_option maxHeartbeats 1000000 in
/-- The body on whole staging memrefs, the inputs' at contents `x` and the output's at anything, runs to the continuation
    holding the inputs' as they were and the output's at `out0_3` of the inputs'. -/
theorem sound_kernel0 (c : Dev nD) (E : Set ℕ) (i : grid0.Coords) (arg1 : Memref sig .tc .vmem S256x768 .f32) (harg1 : arg1.IsWhole) (arg2 : Memref sig .tc .vmem S768x2304 .f32) (harg2 : arg2.IsWhole) (arg3 : Memref sig .tc .vmem S1x2304 .f32) (harg3 : arg3.IsWhole) (arg4 : Memref sig .tc .vmem S256x2304 .f32) (harg4 : arg4.IsWhole)
    (x0 : Vec F S256x768 .f32) (x1 : Vec F S768x2304 .f32) (x2 : Vec F S1x2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the kernel's program, at any float instance and at any contents `V` of the buffers when the region is
  entered: the edge scores: for 512 edges and every head, exp of an eighth of the dot product of the query row with the key row plus the relative key.
  Per grid point the body loads every input window's block whole, computes one payload and stores it over the whole
  output block; so the output staging buffer after the body is that payload of the input blocks (`out1_3`), the
  input buffers are left as found, and the pipeline's proof data (`dat1`) say exactly this. The body obligation of the
  pipeline follows from the body's triple: the loads and the one store, taken in order.
-/
import proofs.«101311_j29489245454921_2_alg».proof.Proof.Gen.Kernel.Launch
import proofs.«101311_j29489245454921_2_alg».proof.Proof.Gen.Kernel.Skeleton
import proofs.«101311_j29489245454921_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or the block
    index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or the block
    index stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or the block
    index stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_S512x12x64 : Rect S512x12x64 := Rect.unit (s := S512x12x64) ![0, 0, 0] S512x12x64.size inb_S512x12x64_S512x12x64_0_0_0
abbrev r1_S512x1x64 : Rect S512x1x64 := Rect.unit (s := S512x1x64) ![0, 0, 0] S512x1x64.size inb_S512x1x64_S512x1x64_0_0_0
abbrev r1_S512x12 : Rect S512x12 := Rect.unit (s := S512x12) ![0, 0] S512x12.size inb_S512x12_S512x12_0_0

/-- The output window's staging buffer after the body, from the input windows' blocks: the one store, of the payload of
    the whole input blocks, over the whole block. -/
def out1_3 (x0 : Vec F S512x12x64 .f32) (x1 : Vec F S512x12x64 .f32) (x2 : Vec F S512x1x64 .f32) : Vec F S512x12 .f32 :=
  View.canon [⟨r1_S512x12, k1_pay1 (View.ld x0 r1_S512x12x64) (View.ld x1 r1_S512x12x64) (View.ld x2 r1_S512x1x64)⟩]

/-- The one store covers the block. -/
theorem cover1_3 (p0 : Vec F S512x12 .f32) (y : S512x12.Idx) :
    ∃ pc ∈ ([⟨r1_S512x12, p0⟩] : List (View.Piece (Elt F) S512x12 .f32)), y ∈ pc.1.set :=
  View.cover_of_tiled [⟨r1_S512x12, p0⟩] S512x12.size (by rfl) y

set_option maxHeartbeats 1000000 in
/-- The body on whole staging memrefs, the inputs' at contents `x` and the output's at anything, runs to the continuation
    holding the inputs' as they were and the output's at `out1_3` of the inputs'. -/
theorem sound_kernel1 (c : Dev nD) (E : Set ℕ) (i : grid1.Coords) (arg1 : Memref sig .tc .vmem S512x12x64 .f32) (harg1 : arg1.IsWhole) (arg2 : Memref sig .tc .vmem S512x12x64 .f32) (harg2 : arg2.IsWhole) (arg3 : Memref sig .tc .vmem S512x1x64 .f32) (harg3 : arg3.IsWhole) (arg4 : Memref sig .tc .vmem S512x12 .f32) (harg4 : arg4.IsWhole)
    (x0 : Vec F S512x12x64 .f32) (x1 : Vec F S512x12x64 .f32) (x2 : Vec F S512x1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__score_kernel i arg1 harg1 arg2 harg2 arg3 harg3 arg4 harg4) K := by
  simp only [cc1__score_kernel_eq_skeleton]; unfold cc1__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the kernel's program, at any float instance and at any contents `V` of the buffers when the region is
  entered: the weighted values: for 512 edges, the value row plus the relative value, times the score divided by the denominator.
  Per grid point the body loads every input window's block whole, computes one payload and stores it over the whole
  output block; so the output staging buffer after the body is that payload of the input blocks (`out2_4`), the
  input buffers are left as found, and the pipeline's proof data (`dat2`) say exactly this. The body obligation of the
  pipeline follows from the body's triple: the loads and the one store, taken in order.
-/
import proofs.«101311_j29489245454921_2_alg».proof.Proof.Gen.Kernel.Launch
import proofs.«101311_j29489245454921_2_alg».proof.Proof.Gen.Kernel.Skeleton
import proofs.«101311_j29489245454921_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or the block
    index stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or the block
    index stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or the block
    index stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or the block
    index stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_S512x12x64 : Rect S512x12x64 := Rect.unit (s := S512x12x64) ![0, 0, 0] S512x12x64.size inb_S512x12x64_S512x12x64_0_0_0
abbrev r2_S512x1x64 : Rect S512x1x64 := Rect.unit (s := S512x1x64) ![0, 0, 0] S512x1x64.size inb_S512x1x64_S512x1x64_0_0_0
abbrev r2_S512x12 : Rect S512x12 := Rect.unit (s := S512x12) ![0, 0] S512x12.size inb_S512x12_S512x12_0_0

/-- The output window's staging buffer after the body, from the input windows' blocks: the one store, of the payload of
    the whole input blocks, over the whole block. -/
def out2_4 (x0 : Vec F S512x12x64 .f32) (x1 : Vec F S512x1x64 .f32) (x2 : Vec F S512x12 .f32) (x3 : Vec F S512x12 .f32) : Vec F S512x12x64 .f32 :=
  View.canon [⟨r2_S512x12x64, k2_pay1 (View.ld x0 r2_S512x12x64) (View.ld x1 r2_S512x1x64) (View.ld x2 r2_S512x12) (View.ld x3 r2_S512x12)⟩]

/-- The one store covers the block. -/
theorem cover2_4 (p0 : Vec F S512x12x64 .f32) (y : S512x12x64.Idx) :
    ∃ pc ∈ ([⟨r2_S512x12x64, p0⟩] : List (View.Piece (Elt F) S512x12x64 .f32)), y ∈ pc.1.set :=
  View.cover_of_tiled [⟨r2_S512x12x64, p0⟩] S512x12x64.size (by rfl) y

set_option maxHeartbeats 1000000 in
/-- The body on whole staging memrefs, the inputs' at contents `x` and the output's at anything, runs to the continuation
    holding the inputs' as they were and the output's at `out2_4` of the inputs'. -/
theorem sound_kernel2 (c : Dev nD) (E : Set ℕ) (i : grid2.Coords) (arg1 : Memref sig .tc .vmem S512x12x64 .f32) (harg1 : arg1.IsWhole) (arg2 : Memref sig .tc .vmem S512x1x64 .f32) (harg2 : arg2.IsWhole) (arg3 : Memref sig .tc .vmem S512x12 .f32) (harg3 : arg3.IsWhole) (arg4 : Memref sig .tc .vmem S512x12 .f32) (harg4 : arg4.IsWhole) (arg5 : Memref sig .tc .vmem S512x12x64 .f32) (harg5 : arg5.IsWhole)
    (x0 : Vec F S512x12x64 .f32) (x1 : Vec F S512x1x64 .f32) (x2 : Vec F S512x12 .f32) (x3 : Vec F S512x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__weighted_kernel i arg1 harg1 arg2 harg2 arg3 harg3 arg4 harg4 arg5 harg5) K := by
  simp only [cc2__weighted_kernel_eq_skeleton]; unfold cc2__weighted_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each input's
    buffer at its block and the output's at `out2_4` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the kernel's program from the launch to the return, at any float instance: three stretches of host
  operations and three kernel regions, in the order host, region 0, host, region 1, host, region 2.

  The buffers' contents at the seven boundaries are a fold from the launch memory: a host stretch maps its entry
  contents to what its operations leave; a region leaves its windows' arrays at what its write-backs fold to (the
  inputs as entered, the output at the blocks its body stored) and every other buffer as entered. Each region is a
  segment entered from every unscoped buffer held at the boundary's contents and left at the next boundary's; the
  segments chain by name, so the launch theorem for a list of segments gives the final memory at the last boundary's
  contents on every unscoped buffer. No host operation writes an argument and no region's output array is one, so the
  fold at an argument walks back to the launch memory.
-/
import proofs.«101311_j29489245454921_2_alg».proof.Proof.K.Region0
import proofs.«101311_j29489245454921_2_alg».proof.Proof.K.Region1
import proofs.«101311_j29489245454921_2_alg».proof.Proof.K.Region2
import proofs.«101311_j29489245454921_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`: what region 0 is entered from. -/
abbrev W1 : Dev nD → Valuation τ sig (Elt F) := fun c => StableHlo.after hostOps0 (W0 m ρ c)
/-- The same, read at the TensorCore's references (the parameter of region 0's proof data). -/
abbrev V1 : (c : Dev nD) → (b : Ref sig .tc) → Buf (Elt F) ((c : Thread nD τ).loc b) := fun c b => W1 m ρ c b
/-- At region 0's exit: each window's array at what the pipeline's write-backs fold to over the whole grid (an input's
    as entered, the output's at the stored blocks), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array (`main_v7`, window 3) leaves the region at the fold of its write-backs. -/
theorem W2_main_v7 (c : Dev nD) : W2 m ρ c (Proc.devRef .tc main_v7) = (dat0 (V1 m ρ) c).arrAt 3 cfg0.N :=
  W2_arr m ρ c 3

/-- After the host stretch `hostOps1`: what region 1 is entered from. -/
abbrev W3 : Dev nD → Valuation τ sig (Elt F) := fun c => StableHlo.after hostOps1 (W2 m ρ c)
/-- The same, read at the TensorCore's references (the parameter of region 1's proof data). -/
abbrev V3 : (c : Dev nD) → (b : Ref sig .tc) → Buf (Elt F) ((c : Thread nD τ).loc b) := fun c b => W3 m ρ c b
/-- At region 1's exit: each window's array at what the pipeline's write-backs fold to over the whole grid (an input's
    as entered, the output's at the stored blocks), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array (`main_v36`, window 3) leaves the region at the fold of its write-backs. -/
theorem W4_main_v36 (c : Dev nD) : W4 m ρ c (Proc.devRef .tc main_v36) = (dat1 (V3 m ρ) c).arrAt 3 cfg1.N :=
  W4_arr m ρ c 3

/-- After the host stretch `hostOps2`: what region 2 is entered from. -/
abbrev W5 : Dev nD → Valuation τ sig (Elt F) := fun c => StableHlo.after hostOps2 (W4 m ρ c)
/-- The same, read at the TensorCore's references (the parameter of region 2's proof data). -/
abbrev V5 : (c : Dev nD) → (b : Ref sig .tc) → Buf (Elt F) ((c : Thread nD τ).loc b) := fun c b => W5 m ρ c b
/-- At region 2's exit: each window's array at what the pipeline's write-backs fold to over the whole grid (an input's
    as entered, the output's at the stored blocks), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array (`main_v62`, window 4) leaves the region at the fold of its write-backs. -/
theorem W6_main_v62 (c : Dev nD) : W6 m ρ c (Proc.devRef .tc main_v62) = (dat2 (V5 m ρ) c).arrAt 4 cfg2.N :=
  W6_arr m ρ c 4

/-! ## The arguments end as launched

No host operation writes an argument (each stretch writes only the results it defines), and a region changes only its
output window's array, which is a result of the program and no argument; an argument a region reads through an input
window is written back as entered. So at an argument's buffer every step of the fold is the identity. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at what the stretch's operations make of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments

Each region is entered from every unscoped buffer at its entry contents beside `R`. Its windows' arrays are split out
of the unscoped buffers and, at the exit, put back at the exit contents; the generator register goes into the
pipeline's invariant and comes back; nothing is owed at any point; the kernel has no semaphore of its own. -/

-- applying a library lemma stated over the pinned configuration needs unification to unfold plain definitions in a
-- metavariable's type
set_option backward.isDefEq.respectTransparency.types false in
/-- Region 0 (the fused projection) over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 1 (the per-edge scores) over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 2 (the per-edge weighted values) over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final memory holds each unscoped TensorCore buffer at the last boundary's contents
    `W6`: the launch theorem over the segments, whose thread states chain by name, the last one read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: from any memory with zero counters the program terminates and every final memory holds each of the
    thirteen argument arrays as launched — each is an unscoped buffer, read at the last boundary's contents, which at
    an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.Kernel.Hand

end
-- ==== Proof.KI.Region0.lean ====
/-
  Region 0 of the kernel's program, at any float instance and at any contents `V` of the buffers when the region is
  entered: the fused projection: a block of 256 rows of the hidden states times the whole concatenated weight matrix plus the bias row.
  Per grid point the body loads every input window's block whole, computes one payload and stores it over the whole
  output block; so the output staging buffer after the body is that payload of the input blocks (`out0_3`), the
  input buffers are left as found, and the pipeline's proof data (`dat0`) say exactly this. The body obligation of the
  pipeline follows from the body's triple: the loads and the one store, taken in order.
-/
import proofs.«101311_j29489245454921_2_alg».proof.Proof.Gen.KernelIdeal.Launch
import proofs.«101311_j29489245454921_2_alg».proof.Proof.Gen.KernelIdeal.Skeleton
import proofs.«101311_j29489245454921_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or the block
    index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether it was fetched there or the block
    index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether it was fetched there or the block
    index stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_S256x768 : Rect S256x768 := Rect.unit (s := S256x768) ![0, 0] S256x768.size inb_S256x768_S256x768_0_0
abbrev r0_S768x2304 : Rect S768x2304 := Rect.unit (s := S768x2304) ![0, 0] S768x2304.size inb_S768x2304_S768x2304_0_0
abbrev r0_S1x2304 : Rect S1x2304 := Rect.unit (s := S1x2304) ![0, 0] S1x2304.size inb_S1x2304_S1x2304_0_0
abbrev r0_S256x2304 : Rect S256x2304 := Rect.unit (s := S256x2304) ![0, 0] S256x2304.size inb_S256x2304_S256x2304_0_0

/-- The output window's staging buffer after the body, from the input windows' blocks: the one store, of the payload of
    the whole input blocks, over the whole block. -/
def out0_3 (x0 : Vec F S256x768 .f32) (x1 : Vec F S768x2304 .f32) (x2 : Vec F S1x2304 .f32) : Vec F S256x2304 .f32 :=
  View.canon [⟨r0_S256x2304, k0_pay1 (View.ld x0 r0_S256x768) (View.ld x1 r0_S768x2304) (View.ld x2 r0_S1x2304)⟩]

/-- The one store covers the block. -/
theorem cover0_3 (p0 : Vec F S256x2304 .f32) (y : S256x2304.Idx) :
    ∃ pc ∈ ([⟨r0_S256x2304, p0⟩] : List (View.Piece (Elt F) S256x2304 .f32)), y ∈ pc.1.set :=
  View.cover_of_tiled [⟨r0_S256x2304, p0⟩] S256x2304.size (by rfl) y

set_option maxHeartbeats 1000000 in
/-- The body on whole staging memrefs, the inputs' at contents `x` and the output's at anything, runs to the continuation
    holding the inputs' as they were and the output's at `out0_3` of the inputs'. -/
theorem sound_kernel0 (c : Dev nD) (E : Set ℕ) (i : grid0.Coords) (arg1 : Memref sig .tc .vmem S256x768 .f32) (harg1 : arg1.IsWhole) (arg2 : Memref sig .tc .vmem S768x2304 .f32) (harg2 : arg2.IsWhole) (arg3 : Memref sig .tc .vmem S1x2304 .f32) (harg3 : arg3.IsWhole) (arg4 : Memref sig .tc .vmem S256x2304 .f32) (harg4 : arg4.IsWhole)
    (x0 : Vec F S256x768 .f32) (x1 : Vec F S768x2304 .f32) (x2 : Vec F S1x2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the kernel's program, at any float instance and at any contents `V` of the buffers when the region is
  entered: the edge scores: for 512 edges and every head, exp of an eighth of the dot product of the query row with the key row plus the relative key.
  Per grid point the body loads every input window's block whole, computes one payload and stores it over the whole
  output block; so the output staging buffer after the body is that payload of the input blocks (`out1_3`), the
  input buffers are left as found, and the pipeline's proof data (`dat1`) say exactly this. The body obligation of the
  pipeline follows from the body's triple: the loads and the one store, taken in order.
-/
import proofs.«101311_j29489245454921_2_alg».proof.Proof.Gen.KernelIdeal.Launch
import proofs.«101311_j29489245454921_2_alg».proof.Proof.Gen.KernelIdeal.Skeleton
import proofs.«101311_j29489245454921_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or the block
    index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or the block
    index stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or the block
    index stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_S512x12x64 : Rect S512x12x64 := Rect.unit (s := S512x12x64) ![0, 0, 0] S512x12x64.size inb_S512x12x64_S512x12x64_0_0_0
abbrev r1_S512x1x64 : Rect S512x1x64 := Rect.unit (s := S512x1x64) ![0, 0, 0] S512x1x64.size inb_S512x1x64_S512x1x64_0_0_0
abbrev r1_S512x12 : Rect S512x12 := Rect.unit (s := S512x12) ![0, 0] S512x12.size inb_S512x12_S512x12_0_0

/-- The output window's staging buffer after the body, from the input windows' blocks: the one store, of the payload of
    the whole input blocks, over the whole block. -/
def out1_3 (x0 : Vec F S512x12x64 .f32) (x1 : Vec F S512x12x64 .f32) (x2 : Vec F S512x1x64 .f32) : Vec F S512x12 .f32 :=
  View.canon [⟨r1_S512x12, k1_pay1 (View.ld x0 r1_S512x12x64) (View.ld x1 r1_S512x12x64) (View.ld x2 r1_S512x1x64)⟩]

/-- The one store covers the block. -/
theorem cover1_3 (p0 : Vec F S512x12 .f32) (y : S512x12.Idx) :
    ∃ pc ∈ ([⟨r1_S512x12, p0⟩] : List (View.Piece (Elt F) S512x12 .f32)), y ∈ pc.1.set :=
  View.cover_of_tiled [⟨r1_S512x12, p0⟩] S512x12.size (by rfl) y

set_option maxHeartbeats 1000000 in
/-- The body on whole staging memrefs, the inputs' at contents `x` and the output's at anything, runs to the continuation
    holding the inputs' as they were and the output's at `out1_3` of the inputs'. -/
theorem sound_kernel1 (c : Dev nD) (E : Set ℕ) (i : grid1.Coords) (arg1 : Memref sig .tc .vmem S512x12x64 .f32) (harg1 : arg1.IsWhole) (arg2 : Memref sig .tc .vmem S512x12x64 .f32) (harg2 : arg2.IsWhole) (arg3 : Memref sig .tc .vmem S512x1x64 .f32) (harg3 : arg3.IsWhole) (arg4 : Memref sig .tc .vmem S512x12 .f32) (harg4 : arg4.IsWhole)
    (x0 : Vec F S512x12x64 .f32) (x1 : Vec F S512x12x64 .f32) (x2 : Vec F S512x1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__score_kernel i arg1 harg1 arg2 harg2 arg3 harg3 arg4 harg4) K := by
  simp only [cc1__score_kernel_eq_skeleton]; unfold cc1__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the kernel's program, at any float instance and at any contents `V` of the buffers when the region is
  entered: the weighted values: for 512 edges, the value row plus the relative value, times the score divided by the denominator.
  Per grid point the body loads every input window's block whole, computes one payload and stores it over the whole
  output block; so the output staging buffer after the body is that payload of the input blocks (`out2_4`), the
  input buffers are left as found, and the pipeline's proof data (`dat2`) say exactly this. The body obligation of the
  pipeline follows from the body's triple: the loads and the one store, taken in order.
-/
import proofs.«101311_j29489245454921_2_alg».proof.Proof.Gen.KernelIdeal.Launch
import proofs.«101311_j29489245454921_2_alg».proof.Proof.Gen.KernelIdeal.Skeleton
import proofs.«101311_j29489245454921_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or the block
    index stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or the block
    index stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or the block
    index stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or the block
    index stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_S512x12x64 : Rect S512x12x64 := Rect.unit (s := S512x12x64) ![0, 0, 0] S512x12x64.size inb_S512x12x64_S512x12x64_0_0_0
abbrev r2_S512x1x64 : Rect S512x1x64 := Rect.unit (s := S512x1x64) ![0, 0, 0] S512x1x64.size inb_S512x1x64_S512x1x64_0_0_0
abbrev r2_S512x12 : Rect S512x12 := Rect.unit (s := S512x12) ![0, 0] S512x12.size inb_S512x12_S512x12_0_0

/-- The output window's staging buffer after the body, from the input windows' blocks: the one store, of the payload of
    the whole input blocks, over the whole block. -/
def out2_4 (x0 : Vec F S512x12x64 .f32) (x1 : Vec F S512x1x64 .f32) (x2 : Vec F S512x12 .f32) (x3 : Vec F S512x12 .f32) : Vec F S512x12x64 .f32 :=
  View.canon [⟨r2_S512x12x64, k2_pay1 (View.ld x0 r2_S512x12x64) (View.ld x1 r2_S512x1x64) (View.ld x2 r2_S512x12) (View.ld x3 r2_S512x12)⟩]

/-- The one store covers the block. -/
theorem cover2_4 (p0 : Vec F S512x12x64 .f32) (y : S512x12x64.Idx) :
    ∃ pc ∈ ([⟨r2_S512x12x64, p0⟩] : List (View.Piece (Elt F) S512x12x64 .f32)), y ∈ pc.1.set :=
  View.cover_of_tiled [⟨r2_S512x12x64, p0⟩] S512x12x64.size (by rfl) y

set_option maxHeartbeats 1000000 in
/-- The body on whole staging memrefs, the inputs' at contents `x` and the output's at anything, runs to the continuation
    holding the inputs' as they were and the output's at `out2_4` of the inputs'. -/
theorem sound_kernel2 (c : Dev nD) (E : Set ℕ) (i : grid2.Coords) (arg1 : Memref sig .tc .vmem S512x12x64 .f32) (harg1 : arg1.IsWhole) (arg2 : Memref sig .tc .vmem S512x1x64 .f32) (harg2 : arg2.IsWhole) (arg3 : Memref sig .tc .vmem S512x12 .f32) (harg3 : arg3.IsWhole) (arg4 : Memref sig .tc .vmem S512x12 .f32) (harg4 : arg4.IsWhole) (arg5 : Memref sig .tc .vmem S512x12x64 .f32) (harg5 : arg5.IsWhole)
    (x0 : Vec F S512x12x64 .f32) (x1 : Vec F S512x1x64 .f32) (x2 : Vec F S512x12 .f32) (x3 : Vec F S512x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__weighted_kernel i arg1 harg1 arg2 harg2 arg3 harg3 arg4 harg4 arg5 harg5) K := by
  simp only [cc2__weighted_kernel_eq_skeleton]; unfold cc2__weighted_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each input's
    buffer at its block and the output's at `out2_4` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the kernel's program from the launch to the return, at any float instance: three stretches of host
  operations and three kernel regions, in the order host, region 0, host, region 1, host, region 2.

  The buffers' contents at the seven boundaries are a fold from the launch memory: a host stretch maps its entry
  contents to what its operations leave; a region leaves its windows' arrays at what its write-backs fold to (the
  inputs as entered, the output at the blocks its body stored) and every other buffer as entered. Each region is a
  segment entered from every unscoped buffer held at the boundary's contents and left at the next boundary's; the
  segments chain by name, so the launch theorem for a list of segments gives the final memory at the last boundary's
  contents on every unscoped buffer. No host operation writes an argument and no region's output array is one, so the
  fold at an argument walks back to the launch memory.
-/
import proofs.«101311_j29489245454921_2_alg».proof.Proof.KI.Region0
import proofs.«101311_j29489245454921_2_alg».proof.Proof.KI.Region1
import proofs.«101311_j29489245454921_2_alg».proof.Proof.KI.Region2
import proofs.«101311_j29489245454921_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`: what region 0 is entered from. -/
abbrev W1 : Dev nD → Valuation τ sig (Elt F) := fun c => StableHlo.after hostOps0 (W0 m ρ c)
/-- The same, read at the TensorCore's references (the parameter of region 0's proof data). -/
abbrev V1 : (c : Dev nD) → (b : Ref sig .tc) → Buf (Elt F) ((c : Thread nD τ).loc b) := fun c b => W1 m ρ c b
/-- At region 0's exit: each window's array at what the pipeline's write-backs fold to over the whole grid (an input's
    as entered, the output's at the stored blocks), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array (`main_v7`, window 3) leaves the region at the fold of its write-backs. -/
theorem W2_main_v7 (c : Dev nD) : W2 m ρ c (Proc.devRef .tc main_v7) = (dat0 (V1 m ρ) c).arrAt 3 cfg0.N :=
  W2_arr m ρ c 3

/-- After the host stretch `hostOps1`: what region 1 is entered from. -/
abbrev W3 : Dev nD → Valuation τ sig (Elt F) := fun c => StableHlo.after hostOps1 (W2 m ρ c)
/-- The same, read at the TensorCore's references (the parameter of region 1's proof data). -/
abbrev V3 : (c : Dev nD) → (b : Ref sig .tc) → Buf (Elt F) ((c : Thread nD τ).loc b) := fun c b => W3 m ρ c b
/-- At region 1's exit: each window's array at what the pipeline's write-backs fold to over the whole grid (an input's
    as entered, the output's at the stored blocks), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array (`main_v36`, window 3) leaves the region at the fold of its write-backs. -/
theorem W4_main_v36 (c : Dev nD) : W4 m ρ c (Proc.devRef .tc main_v36) = (dat1 (V3 m ρ) c).arrAt 3 cfg1.N :=
  W4_arr m ρ c 3

/-- After the host stretch `hostOps2`: what region 2 is entered from. -/
abbrev W5 : Dev nD → Valuation τ sig (Elt F) := fun c => StableHlo.after hostOps2 (W4 m ρ c)
/-- The same, read at the TensorCore's references (the parameter of region 2's proof data). -/
abbrev V5 : (c : Dev nD) → (b : Ref sig .tc) → Buf (Elt F) ((c : Thread nD τ).loc b) := fun c b => W5 m ρ c b
/-- At region 2's exit: each window's array at what the pipeline's write-backs fold to over the whole grid (an input's
    as entered, the output's at the stored blocks), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array (`main_v62`, window 4) leaves the region at the fold of its write-backs. -/
theorem W6_main_v62 (c : Dev nD) : W6 m ρ c (Proc.devRef .tc main_v62) = (dat2 (V5 m ρ) c).arrAt 4 cfg2.N :=
  W6_arr m ρ c 4

/-! ## The arguments end as launched

No host operation writes an argument (each stretch writes only the results it defines), and a region changes only its
output window's array, which is a result of the program and no argument; an argument a region reads through an input
window is written back as entered. So at an argument's buffer every step of the fold is the identity. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at what the stretch's operations make of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments

Each region is entered from every unscoped buffer at its entry contents beside `R`. Its windows' arrays are split out
of the unscoped buffers and, at the exit, put back at the exit contents; the generator register goes into the
pipeline's invariant and comes back; nothing is owed at any point; the kernel has no semaphore of its own. -/

-- applying a library lemma stated over the pinned configuration needs unification to unfold plain definitions in a
-- metavariable's type
set_option backward.isDefEq.respectTransparency.types false in
/-- Region 0 (the fused projection) over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 1 (the per-edge scores) over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 2 (the per-edge weighted values) over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final memory holds each unscoped TensorCore buffer at the last boundary's contents
    `W6`: the launch theorem over the segments, whose thread states chain by name, the last one read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: from any memory with zero counters the program terminates and every final memory holds each of the
    thirteen argument arrays as launched — each is an unscoped buffer, read at the last boundary's contents, which at
    an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.KernelIdeal.Hand

end
-- ==== Proof.Spec.lean ====
/-
  The three kernels of the program as functions of whole arrays, on the extended reals, entry by entry.

  * `proj`: the fused projection. Entry (i, o) is the sum over k of hs(i, k) · w(k, o), plus the bias row's entry o.
  * `score`: the unnormalised attention score of edge e and head h: exp of an eighth of the sum over the 64 lanes d of
    q(e, h, d) · (k(e, h, d) + rk(e, 0, d)); the eighth is the float word 0x3E000000.
  * `weighted`: the reweighted value of edge e, head h, lane d: (v(e, h, d) + rv(e, 0, d)) · (s(e, h) / den(e, h)).
-/
import Idealize.ShloMosaic.PureOps.Ideal
import Idealize.ShloMosaic.Lib.ValueIdx

noncomputable section

open scoped BigOperators

namespace Cert.Spec

open Idealize.ShloMosaic Idealize.ShloMosaic.ValueIdx

/-- One entry of the fused projection. -/
def projAt (hs : FVec Ideal ⟨2, ![2048, 768]⟩ .f32) (w : FVec Ideal ⟨2, ![768, 2304]⟩ .f32) (b : FVec Ideal ⟨2, ![1, 2304]⟩ .f32)
    (i : Fin 2048) (o : Fin 2304) : EReal :=
  (∑ k : Fin 768, hs (ix2 i k) * w (ix2 k o)) + b (ix2 (0 : Fin 1) o)

/-- The fused projection as a whole array. -/
def proj (hs : FVec Ideal ⟨2, ![2048, 768]⟩ .f32) (w : FVec Ideal ⟨2, ![768, 2304]⟩ .f32) (b : FVec Ideal ⟨2, ![1, 2304]⟩ .f32) :
    FVec Ideal ⟨2, ![2048, 2304]⟩ .f32 :=
  fun j => projAt hs w b (j 0) (j 1)

theorem proj_apply (hs w b) (i : Fin 2048) (o : Fin 2304) : proj hs w b (ix2 i o) = projAt hs w b i o := rfl

/-- One edge score. -/
def scoreAt (q k : FVec Ideal ⟨3, ![131072, 12, 64]⟩ .f32) (rk : FVec Ideal ⟨3, ![131072, 1, 64]⟩ .f32)
    (e : Fin 131072) (h : Fin 12) : EReal :=
  Ideal.exp ((∑ d : Fin 64, q (ix3 e h d) * (k (ix3 e h d) + rk (ix3 e (0 : Fin 1) d))) * Ideal.ofBits .f32 0x3E000000#32)

/-- The edge scores as a whole array. -/
def score (q k : FVec Ideal ⟨3, ![131072, 12, 64]⟩ .f32) (rk : FVec Ideal ⟨3, ![131072, 1, 64]⟩ .f32) :
    FVec Ideal ⟨2, ![131072, 12]⟩ .f32 :=
  fun j => scoreAt q k rk (j 0) (j 1)

theorem score_apply (q k rk) (e : Fin 131072) (h : Fin 12) : score q k rk (ix2 e h) = scoreAt q k rk e h := rfl

/-- One reweighted value. -/
def weightedAt (v : FVec Ideal ⟨3, ![131072, 12, 64]⟩ .f32) (rv : FVec Ideal ⟨3, ![131072, 1, 64]⟩ .f32)
    (s den : FVec Ideal ⟨2, ![131072, 12]⟩ .f32) (e : Fin 131072) (h : Fin 12) (d : Fin 64) : EReal :=
  (v (ix3 e h d) + rv (ix3 e (0 : Fin 1) d)) * Ideal.div (s (ix2 e h)) (den (ix2 e h))

/-- The reweighted values as a whole array. -/
def weighted (v : FVec Ideal ⟨3, ![131072, 12, 64]⟩ .f32) (rv : FVec Ideal ⟨3, ![131072, 1, 64]⟩ .f32)
    (s den : FVec Ideal ⟨2, ![131072, 12]⟩ .f32) : FVec Ideal ⟨3, ![131072, 12, 64]⟩ .f32 :=
  fun j => weightedAt v rv s den (j 0) (j 1) (j 2)

theorem weighted_apply (v rv s den) (e : Fin 131072) (h : Fin 12) (d : Fin 64) :
    weighted v rv s den (ix3 e h d) = weightedAt v rv s den e h d := rfl

end Cert.Spec

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.KI.Value0.lean ====
/-
  The array region 0 leaves: the fused projection of the whole arrays.

  Each grid point t stores, over the whole output block, the payload of the three loaded input blocks: rows
  256 t … 256 t + 255 of the hidden states, the whole weight matrix and the whole bias row.  At row p and column o of
  the block the payload is the sum over k of hs(256 t + p, k) · w(k, o) plus b(0, o): the two format changes are the
  identity on the extended reals, the product into the zero accumulator is the plain sum, and the bias row is broadcast
  over the rows.  So what point t writes back is block t of the projection of the whole arrays; the eight blocks tile the
  output array (the block covering row r is r / 256), hence the array ends holding the projection.
-/
import proofs.«101311_j29489245454921_2_alg».proof.Proof.KI.Region0
import proofs.«101311_j29489245454921_2_alg».proof.Proof.Spec
import proofs.«101311_j29489245454921_2_alg».proof.Proof.LibPlainMatmul
import Idealize.ShloMosaic.Lib.Pipeline.Value
import Idealize.ShloMosaic.Lib.ValueIdx
import Idealize.ShloMosaic.Lib.ValueLayout

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The payload at an index -/

/-- The product's dimension record reads the result's row on the first operand's row axis, -/
theorem lhs_dot_0 (j : S256x2304.Idx) (q : dot_S256x768_S768x2304_S256x2304_1_0_0_1_n_n.contr.Idx) :
    (dot_S256x768_S768x2304_S256x2304_1_0_0_1_n_n.lhsIdx j q ⟨0, Nat.zero_lt_two⟩).val = (j ⟨0, Nat.zero_lt_two⟩).val := by
  unfold DotDims.lhsIdx
  rw [dif_neg (show ¬(⟨0, Nat.zero_lt_two⟩ : Fin S256x768.rank) ∈ dot_S256x768_S768x2304_S256x2304_1_0_0_1_n_n.lhsBatch by decide), dif_pos (show (⟨0, Nat.zero_lt_two⟩ : Fin S256x768.rank) ∈ dot_S256x768_S768x2304_S256x2304_1_0_0_1_n_n.lhsNonContracting by decide)]
  rfl
/-- the contraction index on its column axis, -/
theorem lhs_dot_1 (j : S256x2304.Idx) (q : dot_S256x768_S768x2304_S256x2304_1_0_0_1_n_n.contr.Idx) :
    (dot_S256x768_S768x2304_S256x2304_1_0_0_1_n_n.lhsIdx j q ⟨1, Nat.one_lt_two⟩).val = (q ⟨0, by decide⟩).val :=
  dot_S256x768_S768x2304_S256x2304_1_0_0_1_n_n.lhsIdx_val_of_single rfl j q
/-- the contraction index on the second operand's row axis, -/
theorem rhs_dot_0 (j : S256x2304.Idx) (q : dot_S256x768_S768x2304_S256x2304_1_0_0_1_n_n.contr.Idx) :
    (dot_S256x768_S768x2304_S256x2304_1_0_0_1_n_n.rhsIdx j q ⟨0, Nat.zero_lt_two⟩).val = (q ⟨0, by decide⟩).val :=
  dot_S256x768_S768x2304_S256x2304_1_0_0_1_n_n.rhsIdx_val_of_single rfl j q
/-- and the result's column on its column axis. -/
theorem rhs_dot_1 (j : S256x2304.Idx) (q : dot_S256x768_S768x2304_S256x2304_1_0_0_1_n_n.contr.Idx) :
    (dot_S256x768_S768x2304_S256x2304_1_0_0_1_n_n.rhsIdx j q ⟨1, Nat.one_lt_two⟩).val = (j ⟨1, Nat.one_lt_two⟩).val := by
  unfold DotDims.rhsIdx
  rw [dif_neg (show ¬(⟨1, Nat.one_lt_two⟩ : Fin S768x2304.rank) ∈ dot_S256x768_S768x2304_S256x2304_1_0_0_1_n_n.rhsBatch by decide), dif_pos (show (⟨1, Nat.one_lt_two⟩ : Fin S768x2304.rank) ∈ dot_S256x768_S768x2304_S256x2304_1_0_0_1_n_n.rhsNonContracting by decide)]
  rfl

/-- The payload at row p and column o of a block: the row of the first block times the column of the second, plus the
    bias row's entry. -/
theorem pay0_apply (x0 : Vec Ideal S256x768 .f32) (x1 : Vec Ideal S768x2304 .f32) (x2 : Vec Ideal S1x2304 .f32) (p : Fin 256) (o : Fin 2304) :
    k0_pay1 x0 x1 x2 (ix2 p o) = (∑ k : Fin 768, x0 (ix2 p k) * x1 (ix2 k o)) + x2 (ix2 (0 : Fin 1) o) := by
  unfold k0_pay1
  simp only [shapeCast_self]
  rw [addf_apply, broadcastTo_1b_ab_apply]
  refine congrArg (· + x2 (ix2 (0 : Fin 1) o)) ?_
  exact Cert.Lib.PlainMatmul.matmul_zero_apply dot_S256x768_S768x2304_S256x2304_1_0_0_1_n_n rfl rfl lhs_dot_0 lhs_dot_1 rhs_dot_0 rhs_dot_1 none _ _ p o

/-- So the payload of blocks that agree with whole arrays hs, w, b — the first block's row p with row r of hs, the
    second block with w, the third with b — is the projection of the whole arrays at row r. -/
theorem pay0_eq_proj (hs : FVec Ideal ⟨2, ![2048, 768]⟩ .f32) (w : FVec Ideal ⟨2, ![768, 2304]⟩ .f32) (b : FVec Ideal ⟨2, ![1, 2304]⟩ .f32)
    (x0 : Vec Ideal S256x768 .f32) (x1 : Vec Ideal S768x2304 .f32) (x2 : Vec Ideal S1x2304 .f32)
    (p : Fin 256) (o : Fin 2304) (r : Fin 2048)
    (h0 : ∀ k : Fin 768, x0 (ix2 p k) = hs (ix2 r k))
    (h1 : ∀ k : Fin 768, x1 (ix2 k o) = w (ix2 k o))
    (h2 : x2 (ix2 (0 : Fin 1) o) = b (ix2 (0 : Fin 1) o)) :
    k0_pay1 x0 x1 x2 (ix2 p o) = Cert.Spec.proj hs w b (ix2 r o) := by
  refine (pay0_apply x0 x1 x2 p o).trans ?_
  rw [Cert.Spec.proj_apply]
  unfold Cert.Spec.projAt
  rw [h2]
  exact congrArg (· + b (ix2 (0 : Fin 1) o)) (Finset.sum_congr rfl fun k _ => by rw [h0 k, h1 k])

/-! ## What each point writes back, and the array -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the first input's and the output's block row is the point, every other
    block index is zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the projection of the arrays as the region finds them. -/
theorem flushed0_eq (c : Dev nD) (t : Fin cfg0.N) :
    (dat0 (F := Ideal) V c).flushed 3 t
      = ((cfg0.win 3).blk t).view.read (Elt Ideal) (Cert.Spec.proj (V c main_v0) (V c main_v4) (V c main_v6)) := by
  show (cfg0.win 3).cut (grid0.coords t) ((dat0 (F := Ideal) V c).after 3 t) = _
  rw [after0_3]
  unfold out0_3
  rw [View.canon_unit_zero hz0]
  simp only [View.ld_unit_zero (S := S256x768) hz0, View.ld_unit_zero (S := S768x2304) hz0, View.ld_unit_zero (S := S1x2304) hz0]
  obtain ⟨e0, e1, e2, e3, e4, e5, e6, e7⟩ := idx_facts0 t
  have ht : t.val < 8 := lt_of_lt_of_eq t.isLt N_0
  refine funext fun (j : S256x2304.Idx) => ?_
  obtain ⟨p, o, rfl⟩ : ∃ (p : Fin 256) (o : Fin 2304), j = ix2 p o := ⟨j 0, j 1, eq_ix2 j⟩
  have hp : p.val < 256 := p.isLt
  show k0_pay1 (iblk0 V c 0 t) (iblk0 V c 1 t) (iblk0 V c 2 t) (ix2 p o)
    = Cert.Spec.proj (V c main_v0) (V c main_v4) (V c main_v6) (((cfg0.win 3).blk t).view.emb (ix2 p o))
  have hemb : ((cfg0.win 3).blk t).view.emb (ix2 p o) = ix2 (⟨t.val * 256 + p.val, by omega⟩ : Fin 2048) o := by
    funext a; apply Fin.ext
    match a with
    | ⟨0, _⟩ => show win0_3.index t (0 : Fin 2) * 256 + 1 * p.val = t.val * 256 + p.val; rw [e6]; omega
    | ⟨1, _⟩ => show win0_3.index t (1 : Fin 2) * 2304 + 1 * o.val = o.val; rw [e7]; omega
  rw [hemb]
  refine pay0_eq_proj (V c main_v0) (V c main_v4) (V c main_v6) (iblk0 V c 0 t) (iblk0 V c 1 t) (iblk0 V c 2 t) p o _ (fun k => ?_) (fun k => ?_) ?_
  · show V c main_v0 (((cfg0.win 0).blk t).view.emb (ix2 p k)) = V c main_v0 (ix2 (⟨t.val * 256 + p.val, by omega⟩ : Fin 2048) k)
    refine congrArg (V c main_v0) (funext fun a => Fin.ext ?_)
    match a with
    | ⟨0, _⟩ => show win0_0.index t (0 : Fin 2) * 256 + 1 * p.val = t.val * 256 + p.val; rw [e0]; omega
    | ⟨1, _⟩ => show win0_0.index t (1 : Fin 2) * 768 + 1 * k.val = k.val; rw [e1]; omega
  · show V c main_v4 (((cfg0.win 1).blk t).view.emb (ix2 k o)) = V c main_v4 (ix2 k o)
    refine congrArg (V c main_v4) (funext fun a => Fin.ext ?_)
    match a with
    | ⟨0, _⟩ => show win0_1.index t (0 : Fin 2) * 768 + 1 * k.val = k.val; rw [e2]; omega
    | ⟨1, _⟩ => show win0_1.index t (1 : Fin 2) * 2304 + 1 * o.val = o.val; rw [e3]; omega
  · show V c main_v6 (((cfg0.win 2).blk t).view.emb (ix2 (0 : Fin 1) o)) = V c main_v6 (ix2 (0 : Fin 1) o)
    refine congrArg (V c main_v6) (funext fun a => Fin.ext ?_)
    match a with
    | ⟨0, _⟩ => show win0_2.index t (0 : Fin 2) * 1 + 1 * (0 : Fin 1).val = (0 : Fin 1).val; rw [e4]; rfl
    | ⟨1, _⟩ => show win0_2.index t (1 : Fin 2) * 2304 + 1 * o.val = o.val; rw [e5]; omega

/-- An index of the array is in point t's block iff each coordinate is in the block's range on its axis. -/
theorem mem_blk0 (t : Fin cfg0.N) (i : S2048x2304.Idx) :
    i ∈ ((cfg0.win 3).blk t).view.set ↔ ∀ a : Fin 2, win0_3.index t a * S256x2304.size a ≤ (i a).val ∧ (i a).val < win0_3.index t a * S256x2304.size a + S256x2304.size a := by
  show i ∈ ((View.whole main_v7).slice (win0_3.rect t)).set ↔ _
  rw [View.set_slice_whole, Rect.mem_set_unit]
  exact Iff.rfl

/-- Every index of the output array is in the block of the point its row divided by 256 names. -/
theorem cover0 (i : S2048x2304.Idx) : ∃ t : Fin cfg0.N, (cfg0.win 3).flush t = true ∧ i ∈ ((cfg0.win 3).blk t).view.set := by
  have hi0 : (i 0).val < 2048 := (i 0).isLt
  have hi1 : (i 1).val < 2304 := (i 1).isLt
  have hN : cfg0.N = 8 := N_0
  have hq : (i 0).val / 256 < cfg0.N := by rw [hN]; omega
  obtain ⟨-, -, -, -, -, -, e6, e7⟩ := idx_facts0 ⟨(i 0).val / 256, hq⟩
  refine ⟨⟨(i 0).val / 256, hq⟩, flush0_3 _, ?_⟩
  rw [mem_blk0]
  intro a
  match a with
  | ⟨0, _⟩ =>
    show win0_3.index ⟨(i 0).val / 256, hq⟩ (0 : Fin 2) * 256 ≤ (i 0).val ∧ (i 0).val < win0_3.index ⟨(i 0).val / 256, hq⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, hq⟩ (1 : Fin 2) * 2304 ≤ (i 1).val ∧ (i 1).val < win0_3.index ⟨(i 0).val / 256, hq⟩ (1 : Fin 2) * 2304 + 2304
    rw [e7]; omega

/-- The output array after the region: the fused projection of the three arrays as the region finds them. -/
theorem final0 (c : Dev nD) :
    (dat0 (F := Ideal) V c).arrAt 3 cfg0.N = Cert.Spec.proj (V c main_v0) (V c main_v4) (V c main_v6) :=
  (dat0 (F := Ideal) V c).arrAt_eq_of_cover 3 (Cert.Spec.proj (V c main_v0) (V c main_v4) (V c main_v6)) (fun t _ => flushed0_eq V c t) cover0

end Cert.KernelIdeal.HandValue

end
-- ==== Proof.LibLaneSum3.lean ====
/-
  A lane sum over the last axis of a rank-3 array, read at an index by coordinates.

  `jnp.sum(v, axis=-1)` of an `[a, b, n]` array is one `vector.multi_reduction <add>` over axis 2 into `[a, b]`, started
  from the zero word.  On the extended reals, read at `(p, q)`, it is `∑ l, v (p, q, l)`: the reduced index with the lane
  coordinate put back on axis 2 is `(p, q, l)`.  (The rank-2 case, a row sum, is the same statement one axis lower.)
-/
import Idealize.ShloMosaic.Lib.Pipeline.Value
import Idealize.ShloMosaic.Lib.ValueIdx
import Idealize.ShloMosaic.PureOps.Ideal.Laws

noncomputable section

open scoped BigOperators

namespace Cert.Lib.LaneSum3

open Idealize.ShloMosaic Idealize.ShloMosaic.ValueIdx

/-- An f32 lane sum over the last axis of an `[a, b, n]` array, started from the zero word (the sum's neutral element),
    is at `(p, q)` the sum over the lane `l` of the entries `(p, q, l)` on the extended reals. -/
theorem laneSum3 {a b n : ℕ} (v : FVec Ideal ⟨3, ![a, b, n]⟩ .f32) (h : (⟨3, ![a, b, n]⟩ : Shape).Reduces [2] ⟨2, ![a, b]⟩)
    (p : Fin a) (q : Fin b) :
    multiReduction .add [2] ⟨2, ![a, b]⟩ v 0x00000000#32 h (.inl rfl) rfl (ix2 p q) = ∑ l : Fin n, v (ix3 p q l) := by
  refine (Ideal.multiReduction_add_single v 0x00000000#32 h (.inl rfl) rfl (ix2 p q)).trans ?_
  refine Finset.sum_congr rfl fun k _ => congrArg v (funext fun c => Fin.ext ?_)
  match c with
  | ⟨0, _⟩ => rfl
  | ⟨1, _⟩ => rfl
  | ⟨2, _⟩ => rfl

end Cert.Lib.LaneSum3

end
-- ==== Proof.KI.Value1.lean ====
/-
  The array region 1 leaves: the edge scores of the whole edge list.

  Region 1 walks the 131072 edges in 256 blocks of 512. At block t it reads rows 512·t … 512·t+511 of the query rows, of
  the key rows and of the relative keys, and writes back, for every edge of the block and every head, exp of an eighth of
  the sum over the 64 lanes of query · (key + relative key). The blocks tile the edge axis, so the array the region leaves
  is that function of the three arrays the region found, entry by entry.
-/
import proofs.«101311_j29489245454921_2_alg».proof.Proof.KI.Region1
import proofs.«101311_j29489245454921_2_alg».proof.Proof.Spec
import proofs.«101311_j29489245454921_2_alg».proof.Proof.LibLaneSum3
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- The relative key's block, one row per edge, spread over the 12 heads: at (p, h, d) it is the block at (p, 0, d). -/
theorem spread1 (x2 : Vec Ideal S512x1x64 .f32) (p : Fin 512) (h : Fin 12) (d : Fin 64) :
    broadcastTo S512x12x64 x2 broadcasts_S512x1x64_S512x12x64 (ix3 p h d) = x2 (ix3 p (0 : Fin 1) d) :=
  broadcastTo_apply x2 broadcasts_S512x1x64_S512x12x64 _ _ fun a => match a with
    | ⟨0, _⟩ => rfl
    | ⟨1, _⟩ => rfl
    | ⟨2, _⟩ => rfl

/-- The body's payload at edge p of the block and head h: exp of an eighth of the lane sum of query · (key + relative key). -/
theorem pay1_at (x0 x1 : Vec Ideal S512x12x64 .f32) (x2 : Vec Ideal S512x1x64 .f32) (p : Fin 512) (h : Fin 12) :
    k1_pay1 x0 x1 x2 (ix2 p h)
      = Ideal.exp ((∑ d : Fin 64, x0 (ix3 p h d) * (x1 (ix3 p h d) + x2 (ix3 p (0 : Fin 1) d))) * Ideal.ofBits .f32 0x3E000000#32) := by
  unfold k1_pay1
  simp only [shapeCast_self]
  show Ideal.exp (multiReduction (F := Ideal) .add [2] S512x12 (mulf x0 (addf x1 (broadcastTo S512x12x64 x2 broadcasts_S512x1x64_S512x12x64)))
      0x00000000#32 reduces_S512x12x64_S512x12 (.inl rfl) rfl (ix2 p h) * Ideal.ofBits .f32 0x3E000000#32) = _
  refine congrArg (fun z => Ideal.exp (z * Ideal.ofBits .f32 0x3E000000#32))
    ((Cert.Lib.LaneSum3.laneSum3 _ reduces_S512x12x64_S512x12 p h).trans ?_)
  refine Finset.sum_congr rfl fun d _ => ?_
  show x0 (ix3 p h d) * (x1 (ix3 p h d) + broadcastTo S512x12x64 x2 broadcasts_S512x1x64_S512x12x64 (ix3 p h d)) = _
  rw [spread1]

/-! ## The blocks of the four windows -/

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: at point t every window's block index is t on the edge axis and 0 on the others. -/
theorem index1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- The query rows' block at point t is rows 512·t … 512·t + 511 of the array. -/
theorem qblk_apply (c : Dev nD) (t : Fin cfg1.N) (x : S512x12x64.Idx) (k : S131072x12x64.Idx)
    (hk0 : (k 0).val = 512 * t.val + (x 0).val) (hk1 : (k 1).val = (x 1).val) (hk2 : (k 2).val = (x 2).val) :
    (iblk1 V c 0 t : Vec Ideal S512x12x64 .f32) x = (V c main_v20 : S131072x12x64.Idx → Elt Ideal .f32) k := by
  obtain ⟨e0, e1, e2, -⟩ := index1 t
  unfold iblk1
  rw [View.read_apply]
  show V c main_v20 _ = V c main_v20 _
  congr 1
  funext a
  apply Fin.ext
  match a with
  | ⟨0, _⟩ => show win1_0.index t 0 * 512 + 1 * (x 0).val = (k 0).val; rw [e0, hk0]; omega
  | ⟨1, _⟩ => show win1_0.index t 1 * 12 + 1 * (x 1).val = (k 1).val; rw [e1, hk1]; omega
  | ⟨2, _⟩ => show win1_0.index t 2 * 64 + 1 * (x 2).val = (k 2).val; rw [e2, hk2]; omega

/-- The key rows' block at point t is rows 512·t … 512·t + 511 of the array. -/
theorem kblk_apply (c : Dev nD) (t : Fin cfg1.N) (x : S512x12x64.Idx) (k : S131072x12x64.Idx)
    (hk0 : (k 0).val = 512 * t.val + (x 0).val) (hk1 : (k 1).val = (x 1).val) (hk2 : (k 2).val = (x 2).val) :
    (iblk1 V c 1 t : Vec Ideal S512x12x64 .f32) x = (V c main_v27 : S131072x12x64.Idx → Elt Ideal .f32) k := by
  obtain ⟨-, -, -, e0, e1, e2, -⟩ := index1 t
  unfold iblk1
  rw [View.read_apply]
  show V c main_v27 _ = V c main_v27 _
  congr 1
  funext a
  apply Fin.ext
  match a with
  | ⟨0, _⟩ => show win1_1.index t 0 * 512 + 1 * (x 0).val = (k 0).val; rw [e0, hk0]; omega
  | ⟨1, _⟩ => show win1_1.index t 1 * 12 + 1 * (x 1).val = (k 1).val; rw [e1, hk1]; omega
  | ⟨2, _⟩ => show win1_1.index t 2 * 64 + 1 * (x 2).val = (k 2).val; rw [e2, hk2]; omega

/-- The relative keys' block at point t is rows 512·t … 512·t + 511 of the array. -/
theorem rblk_apply (c : Dev nD) (t : Fin cfg1.N) (x : S512x1x64.Idx) (k : S131072x1x64.Idx)
    (hk0 : (k 0).val = 512 * t.val + (x 0).val) (hk1 : (k 1).val = (x 1).val) (hk2 : (k 2).val = (x 2).val) :
    (iblk1 V c 2 t : Vec Ideal S512x1x64 .f32) x = (V c main_v35 : S131072x1x64.Idx → Elt Ideal .f32) k := by
  obtain ⟨-, -, -, -, -, -, e0, e1, e2, -⟩ := index1 t
  unfold iblk1
  rw [View.read_apply]
  show V c main_v35 _ = V c main_v35 _
  congr 1
  funext a
  apply Fin.ext
  match a with
  | ⟨0, _⟩ => show win1_2.index t 0 * 512 + 1 * (x 0).val = (k 0).val; rw [e0, hk0]; omega
  | ⟨1, _⟩ => show win1_2.index t 1 * 1 + 1 * (x 1).val = (k 1).val; rw [e1, hk1]; omega
  | ⟨2, _⟩ => show win1_2.index t 2 * 64 + 1 * (x 2).val = (k 2).val; rw [e2, hk2]; omega

/-- The scores' block at point t sits at rows 512·t … 512·t + 511 of the array. -/
theorem sblk_emb (t : Fin cfg1.N) (p : Fin 512) (h : Fin 12) (e : Fin 131072) (he : e.val = 512 * t.val + p.val) :
    (((cfg1.win 3).blk t).view.emb (ix2 p h) : S131072x12.Idx) = ix2 e h := by
  obtain ⟨-, -, -, -, -, -, -, -, -, e0, e1⟩ := index1 t
  funext a
  apply Fin.ext
  match a with
  | ⟨0, _⟩ => show win1_3.index t 0 * 512 + 1 * p.val = e.val; rw [e0, he]; omega
  | ⟨1, _⟩ => show win1_3.index t 1 * 12 + 1 * h.val = h.val; rw [e1]; omega

/-! ## What each point writes back, and the array the region leaves -/

/-- What point t writes back is block t of the scores of the three arrays the region found. -/
theorem flushed1_eq (c : Dev nD) (t : Fin cfg1.N) :
    (dat1 (F := Ideal) V c).flushed 3 t
      = ((cfg1.win 3).blk t).view.read (Elt Ideal) (Cert.Spec.score (V c main_v20) (V c main_v27) (V c main_v35)) := by
  show (cfg1.win 3).cut (grid1.coords t) ((dat1 V c).after 3 t) = _
  rw [after1_3]
  unfold out1_3
  rw [View.canon_unit_zero zeros2]
  simp only [View.ld_unit_zero (S := S512x12x64) zeros3, View.ld_unit_zero (S := S512x1x64) zeros3]
  funext j
  obtain ⟨p, h, rfl⟩ : ∃ (p : Fin 512) (h : Fin 12), j = ix2 p h := ⟨j 0, j 1, eq_ix2 j⟩
  have hp : p.val < 512 := p.isLt
  have ht : t.val < 256 := t.isLt
  rw [View.read_apply, sblk_emb t p h ⟨512 * t.val + p.val, by omega⟩ rfl]
  show k1_pay1 (iblk1 V c 0 t) (iblk1 V c 1 t) (iblk1 V c 2 t) (ix2 p h) = _
  refine (pay1_at _ _ _ p h).trans ?_
  rw [Cert.Spec.score_apply]
  unfold Cert.Spec.scoreAt
  refine congrArg (fun z => Ideal.exp (z * Ideal.ofBits .f32 0x3E000000#32)) (Finset.sum_congr rfl fun d _ => ?_)
  rw [qblk_apply V c t (ix3 p h d) (ix3 ⟨512 * t.val + p.val, by omega⟩ h d) rfl rfl rfl,
    kblk_apply V c t (ix3 p h d) (ix3 ⟨512 * t.val + p.val, by omega⟩ h d) rfl rfl rfl,
    rblk_apply V c t (ix3 p (0 : Fin 1) d) (ix3 ⟨512 * t.val + p.val, by omega⟩ (0 : Fin 1) d) rfl rfl rfl]

/-- An index of the scores is in point t's block iff each coordinate is in the block's range on its axis. -/
theorem mem_blk1 (t : Fin cfg1.N) (i : S131072x12.Idx) :
    i ∈ ((cfg1.win 3).blk t).view.set ↔ ∀ a : Fin 2, win1_3.index t a * S512x12.size a ≤ (i a).val ∧ (i a).val < win1_3.index t a * S512x12.size a + S512x12.size a := by
  show i ∈ ((View.whole main_v36).slice (win1_3.rect t)).set ↔ _
  rw [View.set_slice_whole, Rect.mem_set_unit]
  exact Iff.rfl

/-- Every edge is in some point's block: edge e in that of point e / 512. -/
theorem cover1 (i : S131072x12.Idx) : ∃ t : Fin cfg1.N, (cfg1.win 3).flush t = true ∧ i ∈ ((cfg1.win 3).blk t).view.set := by
  have hi0 : (i 0).val < 131072 := (i 0).isLt
  have hi1 : (i 1).val < 12 := (i 1).isLt
  have hN : cfg1.N = 256 := N_1
  refine ⟨⟨(i 0).val / 512, by rw [hN]; omega⟩, flush1_3 _, ?_⟩
  rw [mem_blk1]
  obtain ⟨-, -, -, -, -, -, -, -, -, e0, e1⟩ := index1 ⟨(i 0).val / 512, by rw [hN]; omega⟩
  intro a
  match a with
  | ⟨0, _⟩ =>
    show win1_3.index _ (0 : Fin 2) * 512 ≤ (i 0).val ∧ (i 0).val < win1_3.index _ (0 : Fin 2) * 512 + 512
    rw [e0]; show (i 0).val / 512 * 512 ≤ (i 0).val ∧ (i 0).val < (i 0).val / 512 * 512 + 512; omega
  | ⟨1, _⟩ =>
    show win1_3.index _ (1 : Fin 2) * 12 ≤ (i 1).val ∧ (i 1).val < win1_3.index _ (1 : Fin 2) * 12 + 12
    rw [e1]; omega

/-- The array region 1 leaves is the scores of the three arrays it found. -/
theorem final1 (V : (c : Dev nD) → (b : Ref sig .tc) → Buf (Elt Ideal) ((c : Thread nD τ).loc b)) (c : Dev nD) :
    (dat1 (F := Ideal) V c).arrAt 3 cfg1.N = Cert.Spec.score (V c main_v20) (V c main_v27) (V c main_v35) :=
  (dat1 (F := Ideal) V c).arrAt_eq_of_cover 3 (Cert.Spec.score (V c main_v20) (V c main_v27) (V c main_v35))
    (fun t _ => flushed1_eq V c t) cover1

end Cert.KernelIdeal.HandValue

end
-- ==== Proof.LibGroupAxis.lean ====
/-
  A trailing axis cut into groups, and a per-group value spread along a group.

  An array of shape [a, n] whose second axis has n = g · l positions can be viewed as [a, g, l]: position k of the long
  axis is position q of group p exactly when k = p · l + q. Both directions of that view are reshapes that keep the
  row-major order, so reading the reshaped array at an index is reading the source at the index with the same row-major
  position:
    * split_apply — [a, n] viewed as [a, g, l], read at (i, p, q), is the source at (i, k) when k = p · l + q;
    * merge_apply — [a, g, l] viewed as [a, n], read at (i, k), is the source at (i, p, q) when k = p · l + q.
  A value given per (row, group) — an [a, g] array — is spread along each group by adding a trailing unit axis and
  broadcasting it:
    * unit_apply — [a, g] viewed as [a, g, 1], read at (i, p, 0), is the source at (i, p);
    * spread_apply — [a, g, 1] broadcast to [a, g, l], read at (i, p, q), is the source at (i, p, 0);
    * column_apply — the two composed: read at (i, p, q) it is the [a, g] source at (i, p), whatever q.
-/
import Idealize.ShloMosaic.Lib.Pipeline.Value
import Idealize.ShloMosaic.Lib.ValueIdx

namespace Cert.Lib.GroupAxis

open Idealize.ShloMosaic Idealize.ShloMosaic.ValueIdx

variable {α : Type}

/-- [a, n] viewed as [a, g, l] (n = g · l), read at (i, p, q), is the source at (i, k) with k = p · l + q. -/
theorem split_apply {a g l n : ℕ} (hn : n = g * l) (x : (⟨2, ![a, n]⟩ : Shape).Idx → α)
    (h : (⟨2, ![a, n]⟩ : Shape).ShapeCasts ⟨3, ![a, g, l]⟩) (i : Fin a) (p : Fin g) (q : Fin l) (k : Fin n)
    (hk : k.val = p.val * l + q.val) :
    shapeCast ⟨3, ![a, g, l]⟩ x h (ix3 i p q) = x (ix2 i k) :=
  shapeCast_apply x h _ _ (by
    rw [Shape.rowMajor_val_two, Shape.rowMajor_val_three]
    show i.val * n + k.val = (i.val * g + p.val) * l + q.val
    rw [hk, hn]; ring)

/-- [a, g, l] viewed as [a, n] (n = g · l), read at (i, k), is the source at (i, p, q) when k = p · l + q. -/
theorem merge_apply {a g l n : ℕ} (hn : n = g * l) (y : (⟨3, ![a, g, l]⟩ : Shape).Idx → α)
    (h : (⟨3, ![a, g, l]⟩ : Shape).ShapeCasts ⟨2, ![a, n]⟩) (i : Fin a) (k : Fin n) (p : Fin g) (q : Fin l)
    (hk : k.val = p.val * l + q.val) :
    shapeCast ⟨2, ![a, n]⟩ y h (ix2 i k) = y (ix3 i p q) :=
  shapeCast_apply y h _ _ (by
    rw [Shape.rowMajor_val_two, Shape.rowMajor_val_three]
    show (i.val * g + p.val) * l + q.val = i.val * n + k.val
    rw [hk, hn]; ring)

/-- [a, g] viewed as [a, g, 1], read at (i, p, 0), is the source at (i, p). -/
theorem unit_apply {a g : ℕ} (x : (⟨2, ![a, g]⟩ : Shape).Idx → α)
    (h : (⟨2, ![a, g]⟩ : Shape).ShapeCasts ⟨3, ![a, g, 1]⟩) (i : Fin a) (p : Fin g) (u : Fin 1) :
    shapeCast ⟨3, ![a, g, 1]⟩ x h (ix3 i p u) = x (ix2 i p) :=
  shapeCast_apply x h _ _ (by
    have hu : u.val = 0 := by omega
    rw [Shape.rowMajor_val_two, Shape.rowMajor_val_three]
    show i.val * g + p.val = (i.val * g + p.val) * 1 + u.val
    rw [hu, Nat.mul_one, Nat.add_zero])

/-- [a, g, 1] broadcast to [a, g, l], read at (i, p, q), is the source at (i, p, 0). -/
theorem spread_apply {a g l : ℕ} (x : (⟨3, ![a, g, 1]⟩ : Shape).Idx → α)
    (h : (⟨3, ![a, g, 1]⟩ : Shape).Broadcasts ⟨3, ![a, g, l]⟩) (i : Fin a) (p : Fin g) (q : Fin l) :
    broadcastTo ⟨3, ![a, g, l]⟩ x h (ix3 i p q) = x (ix3 i p (0 : Fin 1)) :=
  broadcastTo_apply x h _ _ fun c => match c with
    | ⟨0, _⟩ => by
      show i.val = if a = 1 then 0 else i.val
      split_ifs with h1
      · have := i.isLt; omega
      · rfl
    | ⟨1, _⟩ => by
      show p.val = if g = 1 then 0 else p.val
      split_ifs with h1
      · have := p.isLt; omega
      · rfl
    | ⟨2, _⟩ => by
      show (0 : ℕ) = if (1 : ℕ) = 1 then 0 else q.val
      rw [if_pos rfl]

/-- An [a, g] array spread along a new trailing axis of length l: read at (i, p, q) it is the source at (i, p). -/
theorem column_apply {a g l : ℕ} (x : (⟨2, ![a, g]⟩ : Shape).Idx → α)
    (h1 : (⟨2, ![a, g]⟩ : Shape).ShapeCasts ⟨3, ![a, g, 1]⟩)
    (h2 : (⟨3, ![a, g, 1]⟩ : Shape).Broadcasts ⟨3, ![a, g, l]⟩) (i : Fin a) (p : Fin g) (q : Fin l) :
    broadcastTo ⟨3, ![a, g, l]⟩ (shapeCast ⟨3, ![a, g, 1]⟩ x h1) h2 (ix3 i p q) = x (ix2 i p) :=
  (spread_apply _ h2 i p q).trans (unit_apply x h1 i p 0)

end Cert.Lib.GroupAxis
-- ==== Proof.KI.Value2.lean ====
/-
  The array region 2 leaves: the reweighted values of the whole edge list.

  Region 2 walks the 131072 edges in 256 blocks of 512. At block t it reads rows 512·t … 512·t+511 of the value rows, of
  the relative values, of the scores and of the denominators, and writes back, for every edge of the block, every head
  and every lane, (value + relative value) · (score / denominator). The blocks tile the edge axis, so the array the
  region leaves is that function of the four arrays the region found, entry by entry.
-/
import proofs.«101311_j29489245454921_2_alg».proof.Proof.KI.Region2
import proofs.«101311_j29489245454921_2_alg».proof.Proof.Spec
import proofs.«101311_j29489245454921_2_alg».proof.Proof.LibGroupAxis
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- The relative value's block, one row per edge, spread over the 12 heads: at (p, h, d) it is the block at (p, 0, d). -/
theorem spreadRel2 (x1 : Vec Ideal S512x1x64 .f32) (p : Fin 512) (h : Fin 12) (d : Fin 64) :
    broadcastTo S512x12x64 x1 broadcasts_S512x1x64_S512x12x64 (ix3 p h d) = x1 (ix3 p (0 : Fin 1) d) :=
  broadcastTo_apply x1 broadcasts_S512x1x64_S512x12x64 _ _ fun a => match a with
    | ⟨0, _⟩ => rfl
    | ⟨1, _⟩ => rfl
    | ⟨2, _⟩ => rfl

/-- The body's payload at edge p of the block, head h and lane d: (value + relative value) · (score / denominator). -/
theorem pay2_at (x0 : Vec Ideal S512x12x64 .f32) (x1 : Vec Ideal S512x1x64 .f32) (x2 x3 : Vec Ideal S512x12 .f32)
    (p : Fin 512) (h : Fin 12) (d : Fin 64) :
    k2_pay1 x0 x1 x2 x3 (ix3 p h d)
      = (x0 (ix3 p h d) + x1 (ix3 p (0 : Fin 1) d)) * Ideal.div (x2 (ix2 p h)) (x3 (ix2 p h)) := by
  unfold k2_pay1
  simp only [shapeCast_self]
  show (x0 (ix3 p h d) + broadcastTo S512x12x64 x1 broadcasts_S512x1x64_S512x12x64 (ix3 p h d))
      * broadcastTo S512x12x64 (shapeCast S512x12x1 (divf (F := Ideal) x2 x3) shapeCasts_S512x12_S512x12x1)
          broadcasts_S512x12x1_S512x12x64 (ix3 p h d) = _
  rw [spreadRel2 x1 p h d,
    Cert.Lib.GroupAxis.column_apply (divf (F := Ideal) x2 x3) shapeCasts_S512x12_S512x12x1 broadcasts_S512x12x1_S512x12x64 p h d]
  rfl

/-! ## The blocks of the five windows -/

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- The printed index maps over the grid: at point t every window's block index is t on the edge axis and 0 on the others. -/
theorem index2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The value rows' block at point t is rows 512·t … 512·t + 511 of the array. -/
theorem vblk_apply (c : Dev nD) (t : Fin cfg2.N) (x : S512x12x64.Idx) (k : S131072x12x64.Idx)
    (hk0 : (k 0).val = 512 * t.val + (x 0).val) (hk1 : (k 1).val = (x 1).val) (hk2 : (k 2).val = (x 2).val) :
    (iblk2 V c 0 t : Vec Ideal S512x12x64 .f32) x = (V c main_v53 : S131072x12x64.Idx → Elt Ideal .f32) k := by
  obtain ⟨e0, e1, e2, -⟩ := index2 t
  unfold iblk2
  rw [View.read_apply]
  show V c main_v53 _ = V c main_v53 _
  congr 1
  funext a
  apply Fin.ext
  match a with
  | ⟨0, _⟩ => show win2_0.index t 0 * 512 + 1 * (x 0).val = (k 0).val; rw [e0, hk0]; omega
  | ⟨1, _⟩ => show win2_0.index t 1 * 12 + 1 * (x 1).val = (k 1).val; rw [e1, hk1]; omega
  | ⟨2, _⟩ => show win2_0.index t 2 * 64 + 1 * (x 2).val = (k 2).val; rw [e2, hk2]; omega

/-- The relative values' block at point t is rows 512·t … 512·t + 511 of the array. -/
theorem rvblk_apply (c : Dev nD) (t : Fin cfg2.N) (x : S512x1x64.Idx) (k : S131072x1x64.Idx)
    (hk0 : (k 0).val = 512 * t.val + (x 0).val) (hk1 : (k 1).val = (x 1).val) (hk2 : (k 2).val = (x 2).val) :
    (iblk2 V c 1 t : Vec Ideal S512x1x64 .f32) x = (V c main_v61 : S131072x1x64.Idx → Elt Ideal .f32) k := by
  obtain ⟨-, -, -, e0, e1, e2, -⟩ := index2 t
  unfold iblk2
  rw [View.read_apply]
  show V c main_v61 _ = V c main_v61 _
  congr 1
  funext a
  apply Fin.ext
  match a with
  | ⟨0, _⟩ => show win2_1.index t 0 * 512 + 1 * (x 0).val = (k 0).val; rw [e0, hk0]; omega
  | ⟨1, _⟩ => show win2_1.index t 1 * 1 + 1 * (x 1).val = (k 1).val; rw [e1, hk1]; omega
  | ⟨2, _⟩ => show win2_1.index t 2 * 64 + 1 * (x 2).val = (k 2).val; rw [e2, hk2]; omega

/-- The scores' block at point t is rows 512·t … 512·t + 511 of the array. -/
theorem scblk_apply (c : Dev nD) (t : Fin cfg2.N) (x : S512x12.Idx) (k : S131072x12.Idx)
    (hk0 : (k 0).val = 512 * t.val + (x 0).val) (hk1 : (k 1).val = (x 1).val) :
    (iblk2 V c 2 t : Vec Ideal S512x12 .f32) x = (V c main_v36 : S131072x12.Idx → Elt Ideal .f32) k := by
  obtain ⟨-, -, -, -, -, -, e0, e1, -⟩ := index2 t
  unfold iblk2
  rw [View.read_apply]
  show V c main_v36 _ = V c main_v36 _
  congr 1
  funext a
  apply Fin.ext
  match a with
  | ⟨0, _⟩ => show win2_2.index t 0 * 512 + 1 * (x 0).val = (k 0).val; rw [e0, hk0]; omega
  | ⟨1, _⟩ => show win2_2.index t 1 * 12 + 1 * (x 1).val = (k 1).val; rw [e1, hk1]; omega

/-- The denominators' block at point t is rows 512·t … 512·t + 511 of the array. -/
theorem dnblk_apply (c : Dev nD) (t : Fin cfg2.N) (x : S512x12.Idx) (k : S131072x12.Idx)
    (hk0 : (k 0).val = 512 * t.val + (x 0).val) (hk1 : (k 1).val = (x 1).val) :
    (iblk2 V c 3 t : Vec Ideal S512x12 .f32) x = (V c main_v46 : S131072x12.Idx → Elt Ideal .f32) k := by
  obtain ⟨-, -, -, -, -, -, -, -, e0, e1, -⟩ := index2 t
  unfold iblk2
  rw [View.read_apply]
  show V c main_v46 _ = V c main_v46 _
  congr 1
  funext a
  apply Fin.ext
  match a with
  | ⟨0, _⟩ => show win2_3.index t 0 * 512 + 1 * (x 0).val = (k 0).val; rw [e0, hk0]; omega
  | ⟨1, _⟩ => show win2_3.index t 1 * 12 + 1 * (x 1).val = (k 1).val; rw [e1, hk1]; omega

/-- The reweighted values' block at point t sits at rows 512·t … 512·t + 511 of the array. -/
theorem wblk_emb (t : Fin cfg2.N) (p : Fin 512) (h : Fin 12) (d : Fin 64) (e : Fin 131072) (he : e.val = 512 * t.val + p.val) :
    (((cfg2.win 4).blk t).view.emb (ix3 p h d) : S131072x12x64.Idx) = ix3 e h d := by
  obtain ⟨-, -, -, -, -, -, -, -, -, -, e0, e1, e2⟩ := index2 t
  funext a
  apply Fin.ext
  match a with
  | ⟨0, _⟩ => show win2_4.index t 0 * 512 + 1 * p.val = e.val; rw [e0, he]; omega
  | ⟨1, _⟩ => show win2_4.index t 1 * 12 + 1 * h.val = h.val; rw [e1]; omega
  | ⟨2, _⟩ => show win2_4.index t 2 * 64 + 1 * d.val = d.val; rw [e2]; omega

/-! ## What each point writes back, and the array the region leaves -/

/-- What point t writes back is block t of the reweighted values of the four arrays the region found. -/
theorem flushed2_eq (c : Dev nD) (t : Fin cfg2.N) :
    (dat2 (F := Ideal) V c).flushed 4 t
      = ((cfg2.win 4).blk t).view.read (Elt Ideal)
          (Cert.Spec.weighted (V c main_v53) (V c main_v61) (V c main_v36) (V c main_v46)) := by
  show (cfg2.win 4).cut (grid2.coords t) ((dat2 V c).after 4 t) = _
  rw [after2_4]
  unfold out2_4
  rw [View.canon_unit_zero zeroOffsets3]
  simp only [View.ld_unit_zero (S := S512x12x64) zeroOffsets3, View.ld_unit_zero (S := S512x1x64) zeroOffsets3,
    View.ld_unit_zero (S := S512x12) zeroOffsets2]
  funext j
  obtain ⟨p, h, d, rfl⟩ : ∃ (p : Fin 512) (h : Fin 12) (d : Fin 64), j = ix3 p h d := ⟨j 0, j 1, j 2, eq_ix3 j⟩
  have hp : p.val < 512 := p.isLt
  have ht : t.val < 256 := t.isLt
  rw [View.read_apply, wblk_emb t p h d ⟨512 * t.val + p.val, by omega⟩ rfl]
  show k2_pay1 (iblk2 V c 0 t) (iblk2 V c 1 t) (iblk2 V c 2 t) (iblk2 V c 3 t) (ix3 p h d) = _
  refine (pay2_at _ _ _ _ p h d).trans ?_
  rw [Cert.Spec.weighted_apply]
  unfold Cert.Spec.weightedAt
  rw [vblk_apply V c t (ix3 p h d) (ix3 ⟨512 * t.val + p.val, by omega⟩ h d) rfl rfl rfl,
    rvblk_apply V c t (ix3 p (0 : Fin 1) d) (ix3 ⟨512 * t.val + p.val, by omega⟩ (0 : Fin 1) d) rfl rfl rfl,
    scblk_apply V c t (ix2 p h) (ix2 ⟨512 * t.val + p.val, by omega⟩ h) rfl rfl,
    dnblk_apply V c t (ix2 p h) (ix2 ⟨512 * t.val + p.val, by omega⟩ h) rfl rfl]
  rfl

/-- An index of the reweighted values is in point t's block iff each coordinate is in the block's range on its axis. -/
theorem mem_blk2 (t : Fin cfg2.N) (i : S131072x12x64.Idx) :
    i ∈ ((cfg2.win 4).blk t).view.set ↔ ∀ a : Fin 3, win2_4.index t a * S512x12x64.size a ≤ (i a).val ∧ (i a).val < win2_4.index t a * S512x12x64.size a + S512x12x64.size a := by
  show i ∈ ((View.whole main_v62).slice (win2_4.rect t)).set ↔ _
  rw [View.set_slice_whole, Rect.mem_set_unit]
  exact Iff.rfl

/-- Every edge is in some point's block: edge e in that of point e / 512. -/
theorem cover2 (i : S131072x12x64.Idx) : ∃ t : Fin cfg2.N, (cfg2.win 4).flush t = true ∧ i ∈ ((cfg2.win 4).blk t).view.set := by
  have hi0 : (i 0).val < 131072 := (i 0).isLt
  have hi1 : (i 1).val < 12 := (i 1).isLt
  have hi2 : (i 2).val < 64 := (i 2).isLt
  have hN : cfg2.N = 256 := N_2
  refine ⟨⟨(i 0).val / 512, by rw [hN]; omega⟩, flush2_4 _, ?_⟩
  rw [mem_blk2]
  obtain ⟨-, -, -, -, -, -, -, -, -, -, e0, e1, e2⟩ := index2 ⟨(i 0).val / 512, by rw [hN]; omega⟩
  intro a
  match a with
  | ⟨0, _⟩ =>
    show win2_4.index _ (0 : Fin 3) * 512 ≤ (i 0).val ∧ (i 0).val < win2_4.index _ (0 : Fin 3) * 512 + 512
    rw [e0]; show (i 0).val / 512 * 512 ≤ (i 0).val ∧ (i 0).val < (i 0).val / 512 * 512 + 512; omega
  | ⟨1, _⟩ =>
    show win2_4.index _ (1 : Fin 3) * 12 ≤ (i 1).val ∧ (i 1).val < win2_4.index _ (1 : Fin 3) * 12 + 12
    rw [e1]; omega
  | ⟨2, _⟩ =>
    show win2_4.index _ (2 : Fin 3) * 64 ≤ (i 2).val ∧ (i 2).val < win2_4.index _ (2 : Fin 3) * 64 + 64
    rw [e2]; omega

/-- The array region 2 leaves is the reweighted values of the four arrays it found. -/
theorem final2 (V : (c : Dev nD) → (b : Ref sig .tc) → Buf (Elt Ideal) ((c : Thread nD τ).loc b)) (c : Dev nD) :
    (dat2 (F := Ideal) V c).arrAt 4 cfg2.N
      = Cert.Spec.weighted (V c main_v53) (V c main_v61) (V c main_v36) (V c main_v46) :=
  (dat2 (F := Ideal) V c).arrAt_eq_of_cover 4
    (Cert.Spec.weighted (V c main_v53) (V c main_v61) (V c main_v36) (V c main_v46))
    (fun t _ => flushed2_eq V c t) cover2

end Cert.KernelIdeal.HandValue

end
-- ==== Proof.LibHostLine.lean ====
/-
  Two small tools for reading what a buffer holds after a line of host operations when the line contains a
  concatenation of three operands.  A concatenation takes its operands as a list of (shape, array) pairs together
  with a proof about the list's shapes, so a rewriting pass cannot enter the list; the congruence below splits such a
  goal into its three operands, each of which is then computed on its own.
-/
import Idealize.ShloMosaic.Lib.StableHlo.Run

namespace Cert.HostLine

open Idealize.ShloMosaic Idealize.ShloMosaic.StableHlo

/-- Two concatenations of three operands of the same shapes along the same axis are equal when the operands are. -/
theorem concat3_congr {α : Type} (t : Shape) (a : Fin t.rank) (s1 s2 s3 : Shape)
    (x1 y1 : s1.Idx → α) (x2 y2 : s2.Idx → α) (x3 y3 : s3.Idx → α) (h h')
    (e1 : x1 = y1) (e2 : x2 = y2) (e3 : x3 = y3) :
    concatenate t a [⟨s1, x1⟩, ⟨s2, x2⟩, ⟨s3, x3⟩] h = concatenate t a [⟨s1, y1⟩, ⟨s2, y2⟩, ⟨s3, y3⟩] h' := by
  subst e1 e2 e3; rfl

/-- An operand of a three-operand operation is read at the reference `![a, b, c] k`; at a literal `k` this reduces it
    to the reference itself (β first: the operand family is applied to the literal index). -/
macro "operand_ref" : tactic =>
  `(tactic| dsimp only [Matrix.cons_val_zero, Matrix.cons_val_one, Matrix.cons_val])

end Cert.HostLine
-- ==== Proof.KI.Glue.lean ====
/-
  What the host lines between the kernels compute, as plain terms of the buffers they read.

  Before the projection: the hidden states flattened to [2048, 768]; the three transposed weight matrices joined along
  the columns into [768, 2304]; the three biases joined and laid out as one row [1, 2304].  Between the projection and
  the scores: the three column bands of the projected array, each cut into 12 heads of 64 lanes; the rows of the query
  band named by the target words and of the key band named by the source words (a negative word first raised by the
  table's length); the relative-key rows named by the position words.  Between the scores and the weighted values:
  the scores summed into their target rows and read back per edge; the value rows and the relative-value rows.
  Each statement is over an arbitrary valuation of the buffers on entry to the line.
-/
import proofs.«101311_j29489245454921_2_alg».proof.Proof.Gen.KernelIdeal.Launch
import Idealize.ShloMosaic.Lib.StableHlo.Run
import proofs.«101311_j29489245454921_2_alg».proof.Proof.LibHostLine

noncomputable section

namespace Cert.KernelIdeal.Glue

open Cert.KernelIdeal Cert.KernelIdeal.Gen Idealize.ShloMosaic Idealize.ShloMosaic.TcCoe Idealize.SL.Sem Idealize.ShloMosaic.StableHlo Cert.HostLine

variable {F : FTy → Type} [FloatOps F]

/-- The row words an index column names: a negative word is first raised by `n` (the table's length), then the words are
    laid out as one column. -/
def rowIdx (n : BitVec 32) (a : (⟨S131072, .i32⟩ : BufTy).Contents (Elt F)) : (⟨S131072x1, .i32⟩ : BufTy).Contents (Elt F) :=
  broadcastInDim S131072x1 ![0] bcast_S131072_S131072x1_0
    (select (cmpi .slt a (broadcastInDim S131072 ![] bcast_S_S131072 (constantI S_ 32 0#32)))
      (addi a (broadcastInDim S131072 ![] bcast_S_S131072 (constantI S_ 32 n))) a)

/-- A band of 768 columns of the projected array, cut into 12 heads of 64 lanes. -/
def band (off : Fin 2 → Nat) (h : S2048x2304.Slices off S2048x768) (x : (⟨S2048x2304, .f32⟩ : BufTy).Contents (Elt F)) :
    (⟨S2048x12x64, .f32⟩ : BufTy).Contents (Elt F) :=
  shapeCast S2048x12x64 (extractStridedSlice S2048x768 off x h) shapeCasts_S2048x768_S2048x12x64

variable (Wv : Valuation τ sig (Elt F))

theorem line0_v0 : StableHlo.after hostOps0 Wv (Proc.devRef .tc main_v0)
    = shapeCast S2048x768 (Wv (Proc.devRef .tc main_arg0)) shapeCasts_S4x512x768_S2048x768 := by
  after_results_simp; rfl

theorem line0_v4 : StableHlo.after hostOps0 Wv (Proc.devRef .tc main_v4)
    = concatenate S768x2304 1 [⟨S768x768, transpose S768x768 [1, 0] (Wv (Proc.devRef .tc main_arg1)) transposes_S768x768_S768x768_1_0⟩,
        ⟨S768x768, transpose S768x768 [1, 0] (Wv (Proc.devRef .tc main_arg3)) transposes_S768x768_S768x768_1_0⟩,
        ⟨S768x768, transpose S768x768 [1, 0] (Wv (Proc.devRef .tc main_arg5)) transposes_S768x768_S768x768_1_0⟩]
        concatenates_S768x768_S768x768_S768x768_S768x2304_d1 := by
  after_results_simp
  refine concat3_congr _ _ _ _ _ _ _ _ _ _ _ _ _ ?_ ?_ ?_ <;>
    (operand_ref; after_results_simp)

theorem line0_v6 : StableHlo.after hostOps0 Wv (Proc.devRef .tc main_v6)
    = shapeCast S1x2304 (concatenate S2304 0 [⟨S768, Wv (Proc.devRef .tc main_arg2)⟩, ⟨S768, Wv (Proc.devRef .tc main_arg4)⟩,
        ⟨S768, Wv (Proc.devRef .tc main_arg6)⟩] concatenates_S768_S768_S768_S2304_d0) shapeCasts_S2304_S1x2304 := by
  after_results_simp
  refine congrArg (fun z => shapeCast S1x2304 z shapeCasts_S2304_S1x2304) ?_
  refine concat3_congr _ _ _ _ _ _ _ _ _ _ _ _ _ ?_ ?_ ?_ <;>
    (operand_ref; after_results_simp)

theorem line1_v20 : StableHlo.after hostOps1 Wv (Proc.devRef .tc main_v20)
    = Host.gather gather_S2048x12x64_S131072x1_S131072x12x64_12_0_n_n_0_1_11264
        (band ![0, 0] slices_S2048x2304_S2048x768_0_0 (Wv (Proc.devRef .tc main_v7)))
        (rowIdx 2048#32 (Wv (Proc.devRef .tc main_arg10))) := by
  after_results_simp; rfl

theorem line1_v27 : StableHlo.after hostOps1 Wv (Proc.devRef .tc main_v27)
    = Host.gather gather_S2048x12x64_S131072x1_S131072x12x64_12_0_n_n_0_1_11264
        (band ![0, 768] slices_S2048x2304_S2048x768_0_768 (Wv (Proc.devRef .tc main_v7)))
        (rowIdx 2048#32 (Wv (Proc.devRef .tc main_arg9))) := by
  after_results_simp; rfl

theorem line1_v13 : StableHlo.after hostOps1 Wv (Proc.devRef .tc main_v13)
    = band ![0, 1536] slices_S2048x2304_S2048x768_0_1536 (Wv (Proc.devRef .tc main_v7)) := by
  after_results_simp; rfl

theorem line1_v35 : StableHlo.after hostOps1 Wv (Proc.devRef .tc main_v35)
    = shapeCast S131072x1x64 (Host.gather gather_S16x64_S131072x1_S131072x64_1_0_n_n_0_1_164 (Wv (Proc.devRef .tc main_arg7))
        (rowIdx 16#32 (Wv (Proc.devRef .tc main_arg12)))) shapeCasts_S131072x64_S131072x1x64 := by
  after_results_simp; rfl

theorem line2_v53 : StableHlo.after hostOps2 Wv (Proc.devRef .tc main_v53)
    = Host.gather gather_S2048x12x64_S131072x1_S131072x12x64_12_0_n_n_0_1_11264 (Wv (Proc.devRef .tc main_v13))
        (rowIdx 2048#32 (Wv (Proc.devRef .tc main_arg9))) := by
  after_results_simp; rfl

theorem line2_v61 : StableHlo.after hostOps2 Wv (Proc.devRef .tc main_v61)
    = shapeCast S131072x1x64 (Host.gather gather_S16x64_S131072x1_S131072x64_1_0_n_n_0_1_164 (Wv (Proc.devRef .tc main_arg8))
        (rowIdx 16#32 (Wv (Proc.devRef .tc main_arg12)))) shapeCasts_S131072x64_S131072x1x64 := by
  after_results_simp; rfl

/-- The scores summed into their target rows, read back at every edge's target row. -/
def denomOf (tgt : (⟨S131072, .i32⟩ : BufTy).Contents (Elt F)) (s : (⟨S131072x12, .f32⟩ : BufTy).Contents (Elt F)) :
    (⟨S131072x12, .f32⟩ : BufTy).Contents (Elt F) :=
  Host.gather gather_S2048x12_S131072x1_S131072x12_1_0_n_n_0_1_112
    (Host.scatterAdd scatter_S2048x12_S131072x1_S131072x12_1_0_0_1
      (broadcastInDim S2048x12 ![] bcast_S_S2048x12 (constant S_ .f32 0x00000000#32))
      (broadcastInDim S131072x1 ![0] bcast_S131072_S131072x1_0 tgt) s)
    (rowIdx 2048#32 tgt)

theorem line2_v46 : StableHlo.after hostOps2 Wv (Proc.devRef .tc main_v46)
    = denomOf (Wv (Proc.devRef .tc main_arg10)) (Wv (Proc.devRef .tc main_v36)) := by
  after_results_simp; rfl

theorem line2_v36 : StableHlo.after hostOps2 Wv (Proc.devRef .tc main_v36) = Wv (Proc.devRef .tc main_v36) := by
  after_results_simp

end Cert.KernelIdeal.Glue

end
-- ==== Proof.KI.KernelValue.lean ====
/-
  The kernel's result as one function of its argument arrays, on the extended reals.

  The projected array is the fused projection of the flattened hidden states by the joined weights and biases; the query,
  key and value tables are its three column bands; an edge's score is computed from the query row of its target, the key
  row of its source and the relative-key row of its position; the denominators are the scores summed into their target
  rows and read back per edge; the result weights the value row of the edge's source, plus the relative-value row of its
  position, by the score over the denominator.
-/
import proofs.«101311_j29489245454921_2_alg».proof.Proof.KI.Glue
import proofs.«101311_j29489245454921_2_alg».proof.Proof.Spec

noncomputable section

namespace Cert.KernelIdeal.Glue

open Cert.KernelIdeal Cert.KernelIdeal.Gen Idealize.ShloMosaic Idealize.ShloMosaic.TcCoe Idealize.SL.Sem

/-- The hidden states flattened to [2048, 768]. -/
def hsOf (x0 : (⟨S4x512x768, .f32⟩ : BufTy).Contents (Elt Ideal)) : (⟨S2048x768, .f32⟩ : BufTy).Contents (Elt Ideal) :=
  shapeCast S2048x768 x0 shapeCasts_S4x512x768_S2048x768

/-- The three transposed weight matrices joined along the columns. -/
def wcat (x1 x3 x5 : (⟨S768x768, .f32⟩ : BufTy).Contents (Elt Ideal)) : (⟨S768x2304, .f32⟩ : BufTy).Contents (Elt Ideal) :=
  concatenate S768x2304 1 [⟨S768x768, transpose S768x768 [1, 0] x1 transposes_S768x768_S768x768_1_0⟩,
    ⟨S768x768, transpose S768x768 [1, 0] x3 transposes_S768x768_S768x768_1_0⟩,
    ⟨S768x768, transpose S768x768 [1, 0] x5 transposes_S768x768_S768x768_1_0⟩]
    concatenates_S768x768_S768x768_S768x768_S768x2304_d1

/-- The three biases joined, as one row. -/
def bcat (x2 x4 x6 : (⟨S768, .f32⟩ : BufTy).Contents (Elt Ideal)) : (⟨S1x2304, .f32⟩ : BufTy).Contents (Elt Ideal) :=
  shapeCast S1x2304 (concatenate S2304 0 [⟨S768, x2⟩, ⟨S768, x4⟩, ⟨S768, x6⟩] concatenates_S768_S768_S768_S2304_d0)
    shapeCasts_S2304_S1x2304

/-- The projected array [2048, 2304]: queries, keys and values side by side. -/
def qkv (x0 : (⟨S4x512x768, .f32⟩ : BufTy).Contents (Elt Ideal)) (x1 x3 x5 : (⟨S768x768, .f32⟩ : BufTy).Contents (Elt Ideal))
    (x2 x4 x6 : (⟨S768, .f32⟩ : BufTy).Contents (Elt Ideal)) : (⟨S2048x2304, .f32⟩ : BufTy).Contents (Elt Ideal) :=
  Cert.Spec.proj (hsOf x0) (wcat x1 x3 x5) (bcat x2 x4 x6)

/-- The relative rows named by the position words, with a unit head axis. -/
def relRows (x : (⟨S16x64, .f32⟩ : BufTy).Contents (Elt Ideal)) (x12 : (⟨S131072, .i32⟩ : BufTy).Contents (Elt Ideal)) :
    (⟨S131072x1x64, .f32⟩ : BufTy).Contents (Elt Ideal) :=
  shapeCast S131072x1x64 (Host.gather gather_S16x64_S131072x1_S131072x64_1_0_n_n_0_1_164 x (rowIdx 16#32 x12))
    shapeCasts_S131072x64_S131072x1x64

/-- The edge scores from the projected array `P`. -/
def scoresOf (P : (⟨S2048x2304, .f32⟩ : BufTy).Contents (Elt Ideal)) (x7 : (⟨S16x64, .f32⟩ : BufTy).Contents (Elt Ideal))
    (x9 x10 x12 : (⟨S131072, .i32⟩ : BufTy).Contents (Elt Ideal)) : (⟨S131072x12, .f32⟩ : BufTy).Contents (Elt Ideal) :=
  Cert.Spec.score
    (Host.gather gather_S2048x12x64_S131072x1_S131072x12x64_12_0_n_n_0_1_11264 (band ![0, 0] slices_S2048x2304_S2048x768_0_0 P) (rowIdx 2048#32 x10))
    (Host.gather gather_S2048x12x64_S131072x1_S131072x12x64_12_0_n_n_0_1_11264 (band ![0, 768] slices_S2048x2304_S2048x768_0_768 P) (rowIdx 2048#32 x9))
    (relRows x7 x12)

/-- The kernel's result from the projected array `P`. -/
def outOf (P : (⟨S2048x2304, .f32⟩ : BufTy).Contents (Elt Ideal)) (x7 x8 : (⟨S16x64, .f32⟩ : BufTy).Contents (Elt Ideal))
    (x9 x10 x12 : (⟨S131072, .i32⟩ : BufTy).Contents (Elt Ideal)) : (⟨S131072x12x64, .f32⟩ : BufTy).Contents (Elt Ideal) :=
  Cert.Spec.weighted
    (Host.gather gather_S2048x12x64_S131072x1_S131072x12x64_12_0_n_n_0_1_11264 (band ![0, 1536] slices_S2048x2304_S2048x768_0_1536 P) (rowIdx 2048#32 x9))
    (relRows x8 x12)
    (scoresOf P x7 x9 x10 x12)
    (denomOf x10 (scoresOf P x7 x9 x10 x12))

end Cert.KernelIdeal.Glue

end
-- ==== Proof.KI.Final.lean ====
/-
  The kernel's result array, as the one function `outOf` of the argument arrays.

  The run leaves in the result buffer what the third region's write-backs fold to; that is the weighted-value function of
  the four arrays the region read; those are what the last host line computed from the scores the second region left and
  from the value band of what the first region left; and so on back to the arguments, which no line and no region
  changes.  Each step substitutes a buffer's contents by the term that produced it.
-/
import proofs.«101311_j29489245454921_2_alg».proof.Proof.KI.Run
import proofs.«101311_j29489245454921_2_alg».proof.Proof.KI.Value0
import proofs.«101311_j29489245454921_2_alg».proof.Proof.KI.Value1
import proofs.«101311_j29489245454921_2_alg».proof.Proof.KI.Value2
import proofs.«101311_j29489245454921_2_alg».proof.Proof.KI.KernelValue

noncomputable section

namespace Cert.KernelIdeal.HandValue

open Cert.KernelIdeal Cert.KernelIdeal.Gen Cert.KernelIdeal.Hand Cert.KernelIdeal.Glue
open Idealize.ShloMosaic Idealize.ShloMosaic.TcCoe Idealize.SL.Sem

variable (m : (ℓ : Loc nD τ sig) → Buf (Elt Ideal) ℓ) (ρ : Dev nD → PrngReg)

/-- A buffer that neither the first host line nor the first region writes is, after them, as launched. -/
theorem W2_keep (c : Dev nD) (b : Ref sig .tc) (h0 : b ∉ hostOps0_W) (h1 : ∀ w, Pipeline.arrRef spec0 w ≠ b) :
    W2 m ρ c (Proc.devRef .tc b) = m ((c : Thread nD τ).loc b) :=
  (W2_of_ne m ρ c b h1).trans ((StableHlo.after_of_writes_sub hostOps0 _ hostOps0_writes h0).trans rfl)

/-- A buffer that the second host line and the second region do not write either is, after them, as launched. -/
theorem W4_keep (c : Dev nD) (b : Ref sig .tc) (h0 : b ∉ hostOps0_W) (h1 : ∀ w, Pipeline.arrRef spec0 w ≠ b)
    (h2 : b ∉ hostOps1_W) (h3 : ∀ w, Pipeline.arrRef spec1 w ≠ b) :
    W4 m ρ c (Proc.devRef .tc b) = m ((c : Thread nD τ).loc b) :=
  (W4_of_ne m ρ c b h3).trans ((StableHlo.after_of_writes_sub hostOps1 _ hostOps1_writes h2).trans (W2_keep m ρ c b h0 h1))

/-- The projected array the first region leaves. -/
theorem projected (c : Dev nD) : W2 m ρ c (Proc.devRef .tc main_v7)
    = qkv (m ((c : Thread nD τ).loc main_arg0)) (m ((c : Thread nD τ).loc main_arg1)) (m ((c : Thread nD τ).loc main_arg3))
        (m ((c : Thread nD τ).loc main_arg5)) (m ((c : Thread nD τ).loc main_arg2)) (m ((c : Thread nD τ).loc main_arg4))
        (m ((c : Thread nD τ).loc main_arg6)) := by
  rw [W2_main_v7, final0]
  show Cert.Spec.proj (StableHlo.after hostOps0 (W0 m ρ c) (Proc.devRef .tc main_v0))
    (StableHlo.after hostOps0 (W0 m ρ c) (Proc.devRef .tc main_v4)) (StableHlo.after hostOps0 (W0 m ρ c) (Proc.devRef .tc main_v6)) = _
  rw [line0_v0, line0_v4, line0_v6]
  rfl

/-- The scores the second region leaves. -/
theorem scored (c : Dev nD) : W4 m ρ c (Proc.devRef .tc main_v36)
    = scoresOf (W2 m ρ c (Proc.devRef .tc main_v7)) (m ((c : Thread nD τ).loc main_arg7)) (m ((c : Thread nD τ).loc main_arg9))
        (m ((c : Thread nD τ).loc main_arg10)) (m ((c : Thread nD τ).loc main_arg12)) := by
  rw [W4_main_v36, final1]
  show Cert.Spec.score (StableHlo.after hostOps1 (W2 m ρ c) (Proc.devRef .tc main_v20))
    (StableHlo.after hostOps1 (W2 m ρ c) (Proc.devRef .tc main_v27)) (StableHlo.after hostOps1 (W2 m ρ c) (Proc.devRef .tc main_v35)) = _
  rw [line1_v20, line1_v27, line1_v35, W2_keep m ρ c main_arg10 (by decide) (by decide), W2_keep m ρ c main_arg9 (by decide) (by decide),
    W2_keep m ρ c main_arg7 (by decide) (by decide), W2_keep m ρ c main_arg12 (by decide) (by decide)]
  rfl

/-- The value band as the last host line finds it. -/
theorem valueBand (c : Dev nD) : W4 m ρ c (Proc.devRef .tc main_v13)
    = band ![0, 1536] slices_S2048x2304_S2048x768_0_1536 (W2 m ρ c (Proc.devRef .tc main_v7)) := by
  rw [W4_of_ne m ρ c main_v13 (by decide)]
  exact line1_v13 (W2 m ρ c)

/-- The kernel's result array is `outOf` of the projected array and the argument arrays. -/
theorem result (c : Dev nD) : W6 m ρ c (Proc.devRef .tc main_v62)
    = outOf (qkv (m ((c : Thread nD τ).loc main_arg0)) (m ((c : Thread nD τ).loc main_arg1)) (m ((c : Thread nD τ).loc main_arg3))
        (m ((c : Thread nD τ).loc main_arg5)) (m ((c : Thread nD τ).loc main_arg2)) (m ((c : Thread nD τ).loc main_arg4))
        (m ((c : Thread nD τ).loc main_arg6)))
      (m ((c : Thread nD τ).loc main_arg7)) (m ((c : Thread nD τ).loc main_arg8)) (m ((c : Thread nD τ).loc main_arg9))
      (m ((c : Thread nD τ).loc main_arg10)) (m ((c : Thread nD τ).loc main_arg12)) := by
  rw [W6_main_v62, final2]
  show Cert.Spec.weighted (StableHlo.after hostOps2 (W4 m ρ c) (Proc.devRef .tc main_v53))
    (StableHlo.after hostOps2 (W4 m ρ c) (Proc.devRef .tc main_v61)) (StableHlo.after hostOps2 (W4 m ρ c) (Proc.devRef .tc main_v36))
    (StableHlo.after hostOps2 (W4 m ρ c) (Proc.devRef .tc main_v46)) = _
  rw [line2_v53, line2_v61, line2_v36, line2_v46, valueBand, scored, projected,
    W4_keep m ρ c main_arg9 (by decide) (by decide) (by decide) (by decide),
    W4_keep m ρ c main_arg8 (by decide) (by decide) (by decide) (by decide),
    W4_keep m ρ c main_arg12 (by decide) (by decide) (by decide) (by decide),
    W4_keep m ρ c main_arg10 (by decide) (by decide) (by decide) (by decide)]
  rfl

end Cert.KernelIdeal.HandValue

end
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.LibConcatVec.lean ====
/-
  Three vectors joined end to end, read at a position.

  A concatenation of three rank-1 arrays of lengths A, B, C along their one axis holds, at a position below A, the first
  array there; at A + k with k below B, the second array at k; at A + B + k with k below C, the third array at k.  The
  position is given as any rank-1 index together with the value of its coordinate, so that the lemmas apply to an index
  however it was built (for instance the trailing coordinates of a row index of the [1, N] layout of the joined vector).
-/
import Idealize.ShloMosaic.Lib.Pipeline.Value
import Idealize.ShloMosaic.Lib.ValueIdx

namespace Cert.Lib.ConcatVec

open Idealize.ShloMosaic Idealize.ShloMosaic.ValueIdx

section Cat1
variable {α : Type}

/-- Three vectors joined end to end: a position in the first stretch reads the first vector. -/
theorem cat1_first {A B C N : Nat} (x₁ : (⟨1, ![A]⟩ : Shape).Idx → α) (x₂ : (⟨1, ![B]⟩ : Shape).Idx → α) (x₃ : (⟨1, ![C]⟩ : Shape).Idx → α)
    (h : Shape.Concatenates [⟨1, ![A]⟩, ⟨1, ![B]⟩, ⟨1, ![C]⟩] ⟨1, ![N]⟩ 0) (j : (⟨1, ![N]⟩ : Shape).Idx) (k : Fin A)
    (hj : (j 0).val = k.val) :
    concatenate ⟨1, ![N]⟩ 0 [⟨⟨1, ![A]⟩, x₁⟩, ⟨⟨1, ![B]⟩, x₂⟩, ⟨⟨1, ![C]⟩, x₃⟩] h j = x₁ (ix1 k) :=
  concatenate_apply_piece (t := ⟨1, ![N]⟩) 0 [⟨⟨1, ![A]⟩, x₁⟩, ⟨⟨1, ![B]⟩, x₂⟩, ⟨⟨1, ![C]⟩, x₃⟩] h j 0 (show (0 : Nat) < 3 by omega) ⟨1, ![A]⟩ x₁ rfl rfl 0 rfl (ix1 k)
    (fun b hb => by
      match b with
      | ⟨0, _⟩ => exact absurd rfl hb)
    ((Nat.zero_add _).trans hj.symm)

/-- Three vectors joined end to end: a position in the second stretch reads the second vector. -/
theorem cat1_second {A B C N : Nat} (x₁ : (⟨1, ![A]⟩ : Shape).Idx → α) (x₂ : (⟨1, ![B]⟩ : Shape).Idx → α) (x₃ : (⟨1, ![C]⟩ : Shape).Idx → α)
    (h : Shape.Concatenates [⟨1, ![A]⟩, ⟨1, ![B]⟩, ⟨1, ![C]⟩] ⟨1, ![N]⟩ 0) (j : (⟨1, ![N]⟩ : Shape).Idx) (k : Fin B)
    (hj : (j 0).val = A + k.val) :
    concatenate ⟨1, ![N]⟩ 0 [⟨⟨1, ![A]⟩, x₁⟩, ⟨⟨1, ![B]⟩, x₂⟩, ⟨⟨1, ![C]⟩, x₃⟩] h j = x₂ (ix1 k) :=
  concatenate_apply_piece (t := ⟨1, ![N]⟩) 0 [⟨⟨1, ![A]⟩, x₁⟩, ⟨⟨1, ![B]⟩, x₂⟩, ⟨⟨1, ![C]⟩, x₃⟩] h j 1 (show (1 : Nat) < 3 by omega) ⟨1, ![B]⟩ x₂ rfl rfl A (Nat.add_zero A) (ix1 k)
    (fun b hb => by
      match b with
      | ⟨0, _⟩ => exact absurd rfl hb)
    hj.symm

/-- Three vectors joined end to end: a position in the third stretch reads the third vector. -/
theorem cat1_third {A B C N : Nat} (x₁ : (⟨1, ![A]⟩ : Shape).Idx → α) (x₂ : (⟨1, ![B]⟩ : Shape).Idx → α) (x₃ : (⟨1, ![C]⟩ : Shape).Idx → α)
    (h : Shape.Concatenates [⟨1, ![A]⟩, ⟨1, ![B]⟩, ⟨1, ![C]⟩] ⟨1, ![N]⟩ 0) (j : (⟨1, ![N]⟩ : Shape).Idx) (k : Fin C)
    (hj : (j 0).val = A + B + k.val) :
    concatenate ⟨1, ![N]⟩ 0 [⟨⟨1, ![A]⟩, x₁⟩, ⟨⟨1, ![B]⟩, x₂⟩, ⟨⟨1, ![C]⟩, x₃⟩] h j = x₃ (ix1 k) :=
  concatenate_apply_piece (t := ⟨1, ![N]⟩) 0 [⟨⟨1, ![A]⟩, x₁⟩, ⟨⟨1, ![B]⟩, x₂⟩, ⟨⟨1, ![C]⟩, x₃⟩] h j 2 (show (2 : Nat) < 3 by omega) ⟨1, ![C]⟩ x₃ rfl rfl (A + B) (show A + (B + 0) = A + B from rfl) (ix1 k)
    (fun b hb => by
      match b with
      | ⟨0, _⟩ => exact absurd rfl hb)
    hj.symm

end Cat1

end Cert.Lib.ConcatVec
-- ==== Proof.Bridge0.lean ====
/-
  The three column bands of the kernel's fused projection are the reference's three projections.

  Entry (p, o) of band number n (columns 768·n … 768·n + 767) of the fused projection is the sum over k of the flattened
  hidden state (p, k) times the joined weight (k, 768·n + o), plus the joined bias at 768·n + o.  The joined weight's
  column 768·n + o is column o of the n-th transposed weight matrix, and the joined bias there is entry o of the n-th
  bias; so the entry is the reference's  hs · Wᵀ + b  at (p, o), term by term — no law of arithmetic is used, only where
  each operand is read.  Cutting a band into heads is the same reshape on both sides.
-/
import proofs.«101311_j29489245454921_2_alg».proof.Proof.KI.KernelValue
import proofs.«101311_j29489245454921_2_alg».proof.Proof.Gen.ReferenceIdeal.Read
import proofs.«101311_j29489245454921_2_alg».proof.Proof.LibSplitConcat
import proofs.«101311_j29489245454921_2_alg».proof.Proof.LibConcatVec
import Idealize.ShloMosaic.Lib.Pipeline.Value
import Idealize.ShloMosaic.Lib.ValueIdx
import Idealize.ShloMosaic.Lib.ValueLayout

noncomputable section

open scoped BigOperators

namespace Cert.Bridge

open Cert.ReferenceIdeal Cert.ReferenceIdeal.Gen Cert.ReferenceIdeal.Read Idealize.ShloMosaic Idealize.ShloMosaic.ValueIdx
open Cert.KernelIdeal.Glue Cert.ReferenceIdeal.Stages Cert.Lib.ConcatVec

/-- A column band of the fused projection, entry by entry: column `o` of the band from `off` is column `o'` = `off + o` of
    the whole. -/
theorem band_entry (off : Nat) (hs : FVec Ideal ⟨2, ![2048, 768]⟩ .f32) (w : FVec Ideal ⟨2, ![768, 2304]⟩ .f32)
    (b : FVec Ideal ⟨2, ![1, 2304]⟩ .f32) (h : (⟨2, ![2048, 2304]⟩ : Shape).Slices ![0, off] ⟨2, ![2048, 768]⟩) (p : Fin 2048) (o : Fin 768)
    (o' : Fin 2304) (ho : o'.val = off + o.val) :
    extractStridedSlice ⟨2, ![2048, 768]⟩ ![0, off] (Cert.Spec.proj hs w b) h (ix2 p o) = Cert.Spec.projAt hs w b p o' :=
  extractStridedSlice_apply _ _ _ _ (ix2 p o') (fun a => by
    match a with
    | ⟨0, _⟩ => exact (Nat.zero_add _).symm
    | ⟨1, _⟩ => exact ho)

/-- The reference's projection  hs · Wᵀ + b  at (p, o). -/
theorem ref_entry (x0 : (⟨S4x512x768, .f32⟩ : BufTy).Contents (Elt Ideal)) (x1 : (⟨S768x768, .f32⟩ : BufTy).Contents (Elt Ideal))
    (x2 : (⟨S768, .f32⟩ : BufTy).Contents (Elt Ideal)) (p : Fin 2048) (o : Fin 768) :
    val_main_v5 (F := Ideal) x0 x1 x2 (ix2 p o)
      = (∑ k : Fin 768, val_main_v0 (F := Ideal) x0 (ix2 p k) * val_main_v1 (F := Ideal) x1 (ix2 k o)) + x2 (ix1 o) := by
  have e := val_main_v5_apply (F := Ideal) x0 x1 x2 (ix2 p o)
  rw [val_main_v2_apply, val_main_v4_apply, val_main_v3_apply] at e
  have el : ∀ k : Fin 768, lidx_main_v2 (ix2 p o) k = ix2 p k := fun k => funext fun a => Fin.ext (by
    match a with
    | ⟨0, _⟩ => rfl
    | ⟨1, _⟩ => rfl)
  have er : ∀ k : Fin 768, ridx_main_v2 (ix2 p o) k = ix2 k o := fun k => funext fun a => Fin.ext (by
    match a with
    | ⟨0, _⟩ => rfl
    | ⟨1, _⟩ => rfl)
  have eb : idx_main_v3 (idx_main_v4 (ix2 p o)) = ix1 o := funext fun a => Fin.ext (by
    match a with
    | ⟨0, _⟩ => rfl)
  simp only [el, er, eb] at e
  exact e

variable (x0 : (⟨S4x512x768, .f32⟩ : BufTy).Contents (Elt Ideal)) (x1 x3 x5 : (⟨S768x768, .f32⟩ : BufTy).Contents (Elt Ideal))
  (x2 x4 x6 : (⟨S768, .f32⟩ : BufTy).Contents (Elt Ideal))

/-- The joined bias row read at a column. -/
theorem bcat_apply (o' : Fin 2304) :
    bcat x2 x4 x6 (ix2 (0 : Fin 1) o')
      = concatenate Cert.KernelIdeal.S2304 0 [⟨Cert.KernelIdeal.S768, x2⟩, ⟨Cert.KernelIdeal.S768, x4⟩, ⟨Cert.KernelIdeal.S768, x6⟩]
          Cert.KernelIdeal.Facts₀.concatenates_S768_S768_S768_S2304_d0 (ix1 o') := by
  unfold bcat
  refine (shapeCast_addUnit_apply ![2304] _ _ (ix2 (0 : Fin 1) o')).trans (congrArg _ (funext fun a => ?_))
  match a with
  | ⟨0, _⟩ => rfl

/-- The query band of the kernel's projection is the reference's query projection. -/
theorem q_band : band ![0, 0] Cert.KernelIdeal.Facts₀.slices_S2048x2304_S2048x768_0_0 (qkv x0 x1 x3 x5 x2 x4 x6) = val_main_v6 (F := Ideal) x0 x1 x2 := by
  unfold band val_main_v6
  refine congrArg (fun z => shapeCast S2048x12x64 z shapeCasts_S2048x768_S2048x12x64) (funext fun i => ?_)
  obtain ⟨p, o, rfl⟩ : ∃ (p : Fin 2048) (o : Fin 768), i = ix2 p o := ⟨i 0, i 1, eq_ix2 i⟩
  refine (band_entry 0 _ _ _ _ p o ⟨o.val, by omega⟩ (Nat.zero_add _).symm).trans ?_
  refine Eq.trans ?_ (ref_entry x0 x1 x2 p o).symm
  unfold Cert.Spec.projAt
  refine congrArg₂ (· + ·) (Finset.sum_congr rfl fun k _ => congrArg₂ (· * ·) rfl ?_) ?_
  · exact cat3_first _ _ _ _ k o _
  · exact (bcat_apply x2 x4 x6 _).trans (cat1_first _ _ _ _ _ o rfl)

/-- The key band of the kernel's projection is the reference's key projection. -/
theorem k_band : band ![0, 768] Cert.KernelIdeal.Facts₀.slices_S2048x2304_S2048x768_0_768 (qkv x0 x1 x3 x5 x2 x4 x6) = val_main_v12 (F := Ideal) x0 x3 x4 := by
  rw [show val_main_v12 (F := Ideal) x0 x3 x4 = val_main_v6 (F := Ideal) x0 x3 x4 from rfl]
  unfold band val_main_v6
  refine congrArg (fun z => shapeCast S2048x12x64 z shapeCasts_S2048x768_S2048x12x64) (funext fun i => ?_)
  obtain ⟨p, o, rfl⟩ : ∃ (p : Fin 2048) (o : Fin 768), i = ix2 p o := ⟨i 0, i 1, eq_ix2 i⟩
  refine (band_entry 768 _ _ _ _ p o ⟨768 + o.val, by omega⟩ rfl).trans ?_
  refine Eq.trans ?_ (ref_entry x0 x3 x4 p o).symm
  unfold Cert.Spec.projAt
  refine congrArg₂ (· + ·) (Finset.sum_congr rfl fun k _ => congrArg₂ (· * ·) rfl ?_) ?_
  · exact cat3_second _ _ _ _ k o _
  · exact (bcat_apply x2 x4 x6 _).trans (cat1_second _ _ _ _ _ o rfl)

/-- The value band of the kernel's projection is the reference's value projection. -/
theorem v_band : band ![0, 1536] Cert.KernelIdeal.Facts₀.slices_S2048x2304_S2048x768_0_1536 (qkv x0 x1 x3 x5 x2 x4 x6) = val_main_v18 (F := Ideal) x0 x5 x6 := by
  rw [show val_main_v18 (F := Ideal) x0 x5 x6 = val_main_v6 (F := Ideal) x0 x5 x6 from rfl]
  unfold band val_main_v6
  refine congrArg (fun z => shapeCast S2048x12x64 z shapeCasts_S2048x768_S2048x12x64) (funext fun i => ?_)
  obtain ⟨p, o, rfl⟩ : ∃ (p : Fin 2048) (o : Fin 768), i = ix2 p o := ⟨i 0, i 1, eq_ix2 i⟩
  refine (band_entry 1536 _ _ _ _ p o ⟨768 + 768 + o.val, by omega⟩ rfl).trans ?_
  refine Eq.trans ?_ (ref_entry x0 x5 x6 p o).symm
  unfold Cert.Spec.projAt
  refine congrArg₂ (· + ·) (Finset.sum_congr rfl fun k _ => congrArg₂ (· * ·) rfl ?_) ?_
  · exact cat3_third _ _ _ _ k o _
  · exact (bcat_apply x2 x4 x6 _).trans (cat1_third _ _ _ _ _ o rfl)

end Cert.Bridge

end
-- ==== Proof.Consts.lean ====
/-
  The float words the two programs spell, as the extended reals they denote, and the one law that joins the kernel's
  scaling of a score with the reference's: the kernel multiplies the lane sum by the word of 1/8; the reference adds the
  lane sum to the zero word and divides by the square root of the word of 64.  Since 64 = 8², the square root is 8, and a
  quotient by the nonzero real 8 is the product with 1/8 on every extended real, infinities included.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `64.0` denotes the real `64`. -/
theorem ofBits_64 : Ideal.ofBits .f32 0x42800000#32 = ((64 : ℝ) : EReal) := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else (Real.sqrt 64 : EReal)) = _
  rw [if_neg (by norm_num), show (64 : ℝ) = 8 ^ 2 by norm_num, Real.sqrt_sq (by norm_num)]

/-- An eighth of `s` is `(0 + s) / √64`, for every extended real `s`. -/
theorem scale_law (s : EReal) :
    s * Ideal.ofBits .f32 0x3E000000#32
      = Ideal.div (Ideal.ofBits .f32 0x00000000#32 + s) (Ideal.sqrt (Ideal.ofBits .f32 0x42800000#32)) := by
  rw [ofBits_zero, zero_add, ofBits_64, sqrt_64, Ideal.div_coe (by norm_num : (8 : ℝ) ≠ 0), ofBits_eighth]

end Cert.Consts

end
-- ==== Proof.LibLayout.lean ====
/-
  Two layout operations read at an index given by coordinates, for any sizes.
  * A rank-3 array cut along its LEADING axis from offset o: entry (j, b, e) of the cut is entry (o + j, b, e)
    of the source.
  * An [a, b] array reshaped to [a, 1, b]: entry (i, u, j) of the result is entry (i, j) of the source, since
    the unit axis contributes nothing to the row-major position.
-/
import Idealize.ShloMosaic.Lib.Pipeline.Value
import Idealize.ShloMosaic.Lib.ValueIdx
import Idealize.ShloMosaic.Lib.ValueLayout

namespace Idealize.ShloMosaic.ValueIdx

variable {α : Type}

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.Bridge1.lean ====
/-
  The kernel's edge scores are the reference's.

  With the query and key tables equal (the bands of the fused projection are the reference's projections), an edge's
  score on both sides is exp of a scaling of the same lane sum  Σ_d q(e,h,d) · (k(e,h,d) + rk(e,d)) : the kernel multiplies
  the sum by the word of 1/8, the reference adds it to the zero word and divides by √64.  The scaling law holds for every
  extended real, so no finiteness of the inputs is used.  The relative-key row carries a unit head axis on the kernel's
  side and is broadcast over the heads on the reference's: both read row e, lane d.
-/
import proofs.«101311_j29489245454921_2_alg».proof.Proof.Bridge0
import proofs.«101311_j29489245454921_2_alg».proof.Proof.Consts
import proofs.«101311_j29489245454921_2_alg».proof.Proof.LibLayout

noncomputable section

open scoped BigOperators

namespace Cert.Bridge

open Cert.ReferenceIdeal Cert.ReferenceIdeal.Gen Cert.ReferenceIdeal.Read Idealize.ShloMosaic Idealize.ShloMosaic.ValueIdx
open Cert.KernelIdeal.Glue

variable (x0 : (⟨S4x512x768, .f32⟩ : BufTy).Contents (Elt Ideal)) (x1 x3 x5 : (⟨S768x768, .f32⟩ : BufTy).Contents (Elt Ideal))
  (x2 x4 x6 : (⟨S768, .f32⟩ : BufTy).Contents (Elt Ideal)) (x7 x8 : (⟨S16x64, .f32⟩ : BufTy).Contents (Elt Ideal))
  (x9 x10 x12 : (⟨S131072, .i32⟩ : BufTy).Contents (Elt Ideal))

/-- The reference's gathered query rows, as a gather of its query table at the target words. -/
theorem ref_v42 : val_main_v42 (F := Ideal) x0 x1 x2 x10
    = Host.gather Cert.KernelIdeal.gather_S2048x12x64_S131072x1_S131072x12x64_12_0_n_n_0_1_11264 (val_main_v6 (F := Ideal) x0 x1 x2) (rowIdx 2048#32 x10) := rfl

/-- The reference's gathered key rows, as a gather of its key table at the source words. -/
theorem ref_v25 : val_main_v25 (F := Ideal) x0 x3 x4 x9
    = Host.gather Cert.KernelIdeal.gather_S2048x12x64_S131072x1_S131072x12x64_12_0_n_n_0_1_11264 (val_main_v12 (F := Ideal) x0 x3 x4) (rowIdx 2048#32 x9) := rfl

/-- The reference's relative-key rows, as a gather at the position words. -/
theorem ref_v32 : val_main_v32 (F := Ideal) x7 x12
    = Host.gather Cert.KernelIdeal.gather_S16x64_S131072x1_S131072x64_1_0_n_n_0_1_164 x7 (rowIdx 16#32 x12) := rfl

/-- A relative row with its unit head axis, read at (e, 0, d), is the gathered row e at lane d. -/
theorem relRows_apply (x : (⟨S16x64, .f32⟩ : BufTy).Contents (Elt Ideal)) (e : Fin 131072) (d : Fin 64) :
    relRows x x12 (ix3 e (0 : Fin 1) d)
      = Host.gather Cert.KernelIdeal.gather_S16x64_S131072x1_S131072x64_1_0_n_n_0_1_164 x (rowIdx 16#32 x12) (ix2 e d) := by
  unfold relRows
  exact shapeCast_ab_a1b_apply _ _ e 0 d

/-- The kernel's edge scores are the reference's. -/
theorem scores_eq : scoresOf (qkv x0 x1 x3 x5 x2 x4 x6) x7 x9 x10 x12 = val_main_v48 (F := Ideal) x0 x1 x2 x3 x4 x7 x9 x10 x12 := by
  unfold scoresOf
  rw [q_band, k_band]
  funext j
  obtain ⟨e, h, rfl⟩ : ∃ (e : Fin 131072) (h : Fin 12), j = ix2 e h := ⟨j 0, j 1, eq_ix2 j⟩
  rw [Cert.Spec.score_apply, val_main_v48_apply, val_main_v47_apply, val_main_v44_apply, val_main_v46_apply, val_main_v45_apply,
    val_main_cst_5_apply, val_main_cst_apply]
  simp only [Ideal.hostUnary_exp_def, Ideal.hostDivf_def, Ideal.hostUnary_sqrt_def, Ideal.ofBits_def]
  rw [← Cert.Consts.scale_law]
  unfold Cert.Spec.scoreAt
  refine congrArg Ideal.exp (congrArg (· * _) (Finset.sum_congr rfl fun d _ => ?_))
  have e44 : idx_main_v44 (ix2 e h) d = ix3 e h d := funext fun a => Fin.ext (by
    match a with
    | ⟨0, _⟩ => rfl
    | ⟨1, _⟩ => rfl
    | ⟨2, _⟩ => rfl)
  have e33 : idx_main_v33 (idx_main_v34 (ix3 e h d)) = ix2 e d := funext fun a => Fin.ext (by
    match a with
    | ⟨0, _⟩ => rfl
    | ⟨1, _⟩ => rfl)
  rw [e44, val_main_v43_apply, val_main_v35_apply, val_main_v34_apply, val_main_v33_apply, e33, ref_v42, ref_v25, ref_v32,
    relRows_apply]
  rfl

end Cert.Bridge

end
-- ==== Proof.Bridge2.lean ====
/-
  The kernel's result is the reference's.

  With the value table and the scores equal, both sides compute, for edge e, head h and lane d,
  (v(e,h,d) + rv(e,d)) · (s(e,h) / den(e,h)), where den is the same function of the same scores on both sides (the scores
  summed into their target rows and read back at each edge's target row).  The kernel carries the relative-value row with
  a unit head axis and the quotient with a unit lane axis; the reference broadcasts them; both read the same entries.
-/
import proofs.«101311_j29489245454921_2_alg».proof.Proof.Bridge1

noncomputable section

open scoped BigOperators

namespace Cert.Bridge

open Cert.ReferenceIdeal Cert.ReferenceIdeal.Gen Cert.ReferenceIdeal.Read Idealize.ShloMosaic Idealize.ShloMosaic.ValueIdx
open Cert.KernelIdeal.Glue

variable (x0 : (⟨S4x512x768, .f32⟩ : BufTy).Contents (Elt Ideal)) (x1 x3 x5 : (⟨S768x768, .f32⟩ : BufTy).Contents (Elt Ideal))
  (x2 x4 x6 : (⟨S768, .f32⟩ : BufTy).Contents (Elt Ideal)) (x7 x8 : (⟨S16x64, .f32⟩ : BufTy).Contents (Elt Ideal))
  (x9 x10 x12 : (⟨S131072, .i32⟩ : BufTy).Contents (Elt Ideal))

/-- The reference's gathered value rows, as a gather of its value table at the source words. -/
theorem ref_v66 : val_main_v66 (F := Ideal) x0 x5 x6 x9
    = Host.gather Cert.KernelIdeal.gather_S2048x12x64_S131072x1_S131072x12x64_12_0_n_n_0_1_11264 (val_main_v18 (F := Ideal) x0 x5 x6) (rowIdx 2048#32 x9) := rfl

/-- The reference's relative-value rows, as a gather at the position words. -/
theorem ref_v73 : val_main_v73 (F := Ideal) x8 x12
    = Host.gather Cert.KernelIdeal.gather_S16x64_S131072x1_S131072x64_1_0_n_n_0_1_164 x8 (rowIdx 16#32 x12) := rfl

/-- The reference's denominators are `denomOf` of its scores. -/
theorem ref_v58 : val_main_v58 (F := Ideal) x0 x1 x2 x3 x4 x7 x9 x10 x12
    = denomOf x10 (val_main_v48 (F := Ideal) x0 x1 x2 x3 x4 x7 x9 x10 x12) := rfl

/-- The kernel's result is the reference's. -/
theorem out_eq : outOf (qkv x0 x1 x3 x5 x2 x4 x6) x7 x8 x9 x10 x12
    = val_main_v79 (F := Ideal) x0 x1 x2 x3 x4 x5 x6 x7 x8 x9 x10 x12 := by
  unfold outOf
  rw [scores_eq, v_band]
  funext j
  obtain ⟨e, h, d, rfl⟩ : ∃ (e : Fin 131072) (h : Fin 12) (d : Fin 64), j = ix3 e h d := ⟨j 0, j 1, j 2, eq_ix3 j⟩
  rw [Cert.Spec.weighted_apply, val_main_v79_apply, val_main_v76_apply, val_main_v78_apply, val_main_v77_apply, val_main_v59_apply,
    val_main_v75_apply, val_main_v74_apply]
  have e77 : idx_main_v77 (idx_main_v78 (ix3 e h d)) = ix2 e h := funext fun a => Fin.ext (by
    match a with
    | ⟨0, _⟩ => rfl
    | ⟨1, _⟩ => rfl)
  have e74 : idx_main_v74 (idx_main_v75 (ix3 e h d)) = ix2 e d := funext fun a => Fin.ext (by
    match a with
    | ⟨0, _⟩ => rfl
    | ⟨1, _⟩ => rfl)
  rw [e77, e74, ref_v66, ref_v73, ref_v58]
  unfold Cert.Spec.weightedAt
  rw [relRows_apply]
  rfl

end Cert.Bridge

end
-- ==== Proof.lean ====
/-
  The certificate of a graph-attention layer: three kernels (a fused query/key/value projection, per-edge scores,
  per-edge weighted values) among host gathers and one scatter-add, against its jnp reference.

  Frames.  The kernel's program is six items: three host lines and three kernel regions.  Each region's body loads its
  input blocks whole, computes one payload and stores it over its output block, so its pipeline leaves the inputs as found
  and the output array at the fold of its write-backs; no item writes an argument.  The reference is a straight host line.

  Values, on the extended reals.  The fused projection's three column bands are the reference's three projections, entry
  by entry (the joined weights and biases are read where they were put).  An edge's score is exp of the same lane sum
  scaled by 1/8 on one side and divided by √64 = 8 on the other — equal on every extended real.  The denominators are one
  function of the scores on both sides, and the result is (v + rv) · (s / den) on both.  No law used needs the inputs
  finite, so the precondition is never opened; the idealization rewrote nothing, so `preserves` is trivial.
-/
import proofs.«101311_j29489245454921_2_alg».proof.Defs
import proofs.«101311_j29489245454921_2_alg».proof.Proof.Gen.Kernel
import proofs.«101311_j29489245454921_2_alg».proof.Proof.Gen.KernelIdeal
import proofs.«101311_j29489245454921_2_alg».proof.Proof.Gen.ReferenceIdeal
import proofs.«101311_j29489245454921_2_alg».proof.Proof.Gen.Pre_finite_inputs
import proofs.«101311_j29489245454921_2_alg».proof.Proof.Gen.ReferenceIdeal.Run
import proofs.«101311_j29489245454921_2_alg».proof.Proof.Gen.ReferenceIdeal.Read
import proofs.«101311_j29489245454921_2_alg».proof.Proof.K.Run
import proofs.«101311_j29489245454921_2_alg».proof.Proof.KI.Final
import proofs.«101311_j29489245454921_2_alg».proof.Proof.Bridge2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Hand Cert.KernelIdeal.HandValue in
/-- The idealized kernel's run with its result array named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v62 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

/-- From memories agreeing on the arguments the two idealized programs end with equal results. -/
theorem algebraic : Cert.algebraic_KernelIdeal_ReferenceIdeal := by
  intro m ρ m' ρ' _ hagree
  refine ⟨fun c => Cert.KernelIdeal.Hand.W6 m ρ c (Proc.devRef .tc Cert.KernelIdeal.main_v62), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v79_eq, h0, h1, h2, h3, h4, h5, h6, h7, h8, h9, h10, h12]
  exact ((Cert.KernelIdeal.HandValue.result m ρ c).trans (Cert.Bridge.out_eq _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
